-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x8 : Shape := ⟨2, ![800000, 8]⟩
abbrev S3x128x128 : Shape := ⟨3, ![3, 128, 128]⟩
abbrev S3x128 : Shape := ⟨2, ![3, 128]⟩
abbrev S3x8x1 : Shape := ⟨3, ![3, 8, 1]⟩
abbrev S3x1 : Shape := ⟨2, ![3, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x8x1 : S_.BroadcastsInDim S3x8x1 (![] : Fin 0 → Fin S3x8x1.rank)
  reducesTo_S3x8x1_S_d0_1_2 : S3x8x1.ReducesTo [0, 1, 2] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg5 : FVec F S3x8x1 .f32) (main_arg6 : FVec F S3x1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x8x1 .f32 := Host.absf main_arg5
  let main_cst_6 : FVec F S_ .f32 := constant S_ .f32 0x7F800000#32
  let main_v20 : FVec F S3x8x1 .f32 := broadcastInDim S3x8x1 ![] bcast_S_S3x8x1 main_cst_6
  let main_v21 : IVec S3x8x1 1 := cmpf .olt main_v19 main_v20
  let main_c_7 : IVec S_ 1 := constantI S_ 1 1#1
  let main_v22 : IVec S_ 1 := (fun x v => Host.reduce IntOp.andi x v reducesTo_S3x8x1_S_d0_1_2 h_S_) main_v21 main_c_7
  let main_v23 : IVec S_ 1 := andi main_v18 main_v22
  let main_v24 : FVec F S3x1 .f32 := Host.absf main_arg6
  let main_cst_8 : FVec F S_ .f32 := constant S_ .f32 0x7F800000#32
  let main_v25 : FVec F S3x1 .f32 := broadcastInDim S3x1 ![] bcast_S_S3x1 main_cst_8
  let main_v26 : IVec S3x1 1 := cmpf .olt main_v24 main_v25
  let main_c_9 : IVec S_ 1 := constantI S_ 1 1#1
  let main_v27 : IVec S_ 1 := (fun x v => Host.reduce IntOp.andi x v reducesTo_S3x1_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x8 .f32) (main_arg3 : FVec F S3x128x128 .f32) (main_arg4 : FVec F S3x128 .f32) (main_arg5 : FVec F S3x8x1 .f32) (main_arg6 : FVec F S3x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x8 : Shape := ⟨2, ![800000, 8]⟩
abbrev S3x128x128 : Shape := ⟨3, ![3, 128, 128]⟩
abbrev S3x128 : Shape := ⟨2, ![3, 128]⟩
abbrev S3x8x1 : Shape := ⟨3, ![3, 8, 1]⟩
abbrev S3x1 : Shape := ⟨2, ![3, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x8x1 : Shape := ⟨3, ![1, 8, 1]⟩
abbrev S8x1 : Shape := ⟨2, ![8, 1]⟩
abbrev S1x8 : Shape := ⟨2, ![1, 8]⟩
abbrev S1x1 : Shape := ⟨2, ![1, 1]⟩
abbrev S1 : Shape := ⟨1, ![1]⟩
abbrev S8000x8 : Shape := ⟨2, ![8000, 8]⟩
abbrev S8000x128 : Shape := ⟨2, ![8000, 128]⟩
abbrev S8000 : Shape := ⟨1, ![8000]⟩
abbrev S8000x1 : Shape := ⟨2, ![8000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩

abbrev nBuf : Space → Nat
  | .hbm => 113
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x8, .f32⟩
  | .hbm, ⟨3, _⟩ => ⟨S3x128x128, .f32⟩
  | .hbm, ⟨4, _⟩ => ⟨S3x128, .f32⟩
  | .hbm, ⟨5, _⟩ => ⟨S3x8x1, .f32⟩
  | .hbm, ⟨6, _⟩ => ⟨S3x1, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S1x8x1, .f32⟩
  | .hbm, ⟨30, _⟩ => ⟨S8x1, .f32⟩
  | .hbm, ⟨31, _⟩ => ⟨S1x8, .f32⟩
  | .hbm, ⟨32, _⟩ => ⟨S1x1, .f32⟩
  | .hbm, ⟨33, _⟩ => ⟨S1, .f32⟩
  | .hbm, ⟨34, _⟩ => ⟨S1x1, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S1x8x1, .f32⟩
  | .hbm, ⟨64, _⟩ => ⟨S8x1, .f32⟩
  | .hbm, ⟨65, _⟩ => ⟨S1x8, .f32⟩
  | .hbm, ⟨66, _⟩ => ⟨S1x1, .f32⟩
  | .hbm, ⟨67, _⟩ => ⟨S1, .f32⟩
  | .hbm, ⟨68, _⟩ => ⟨S1x1, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S1x8x1, .f32⟩
  | .hbm, ⟨98, _⟩ => ⟨S8x1, .f32⟩
  | .hbm, ⟨99, _⟩ => ⟨S1x8, .f32⟩
  | .hbm, ⟨100, _⟩ => ⟨S1x1, .f32⟩
  | .hbm, ⟨101, _⟩ => ⟨S1, .f32⟩
  | .hbm, ⟨102, _⟩ => ⟨S1x1, .f32⟩
  | .hbm, ⟨103, _⟩ => ⟨S800000x128, .f32⟩
  | .hbm, ⟨104, _⟩ => ⟨S_, .f32⟩
  | .hbm, ⟨105, _⟩ => ⟨S50000x128, .f32⟩
  | .hbm, ⟨106, _⟩ => ⟨S800000x1, .i32⟩
  | .hbm, ⟨107, _⟩ => ⟨S50000x128, .f32⟩
  | .hbm, ⟨108, _⟩ => ⟨S1x128x128, .f32⟩
  | .hbm, ⟨109, _⟩ => ⟨S128x128, .f32⟩
  | .hbm, ⟨110, _⟩ => ⟨S1x128, .f32⟩
  | .hbm, ⟨111, _⟩ => ⟨S128, .f32⟩
  | .hbm, ⟨112, _⟩ => ⟨S50000x128, .f32⟩
  | .local _ .vmem, ⟨0, _⟩ => ⟨S8000x8, .f32⟩
  | .local _ .vmem, ⟨1, _⟩ => ⟨S8000x8, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S1x8, .f32⟩
  | .local _ .vmem, ⟨7, _⟩ => ⟨S1x1, .f32⟩
  | .local _ .vmem, ⟨8, _⟩ => ⟨S8000x128, .f32⟩
  | .local _ .vmem, ⟨9, _⟩ => ⟨S8000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S8000x8, .f32⟩
  | .local _ .vmem, ⟨19, _⟩ => ⟨S8000x8, .f32⟩
  | .local _ .vmem, ⟨20, _⟩ => ⟨S8000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S1x8, .f32⟩
  | .local _ .vmem, ⟨25, _⟩ => ⟨S1x1, .f32⟩
  | .local _ .vmem, ⟨26, _⟩ => ⟨S8000x128, .f32⟩
  | .local _ .vmem, ⟨27, _⟩ => ⟨S8000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S8000x8, .f32⟩
  | .local _ .vmem, ⟨37, _⟩ => ⟨S8000x8, .f32⟩
  | .local _ .vmem, ⟨38, _⟩ => ⟨S8000x128, .f32⟩
  | .local _ .vmem, ⟨39, _⟩ => ⟨S8000x128, .f32⟩
  | .local _ .vmem, ⟨40, _⟩ => ⟨S8000x128, .f32⟩
  | .local _ .vmem, ⟨41, _⟩ => ⟨S8000x128, .f32⟩
  | .local _ .vmem, ⟨42, _⟩ => ⟨S1x8, .f32⟩
  | .local _ .vmem, ⟨43, _⟩ => ⟨S1x1, .f32⟩
  | .local _ .vmem, ⟨44, _⟩ => ⟨S8000x128, .f32⟩
  | .local _ .vmem, ⟨45, _⟩ => ⟨S8000x128, .f32⟩
  | .local _ .vmem, ⟨46, _⟩ => ⟨S10000x128, .f32⟩
  | .local _ .vmem, ⟨47, _⟩ => ⟨S10000x128, .f32⟩
  | .local _ .vmem, ⟨48, _⟩ => ⟨S128x128, .f32⟩
  | .local _ .vmem, ⟨49, _⟩ => ⟨S128, .f32⟩
  | .local _ .vmem, ⟨50, _⟩ => ⟨S10000x128, .f32⟩
  | .local _ .vmem, ⟨51, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_8 : Ref sig .tc := ⟨.hbm, 79, rfl⟩
abbrev main_v62 : Ref sig .tc := ⟨.hbm, 80, rfl⟩
abbrev main_v63 : Ref sig .tc := ⟨.hbm, 81, rfl⟩
abbrev main_c_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_10 : Ref sig .tc := ⟨.hbm, 88, rfl⟩
abbrev main_v69 : Ref sig .tc := ⟨.hbm, 89, rfl⟩
abbrev main_v70 : Ref sig .tc := ⟨.hbm, 90, rfl⟩
abbrev main_c_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_12 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem3_1 : DmaSem sig := 51

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x8x1_S1x8x1_0_0_0 : S3x8x1.Slices ![0, 0, 0] S1x8x1
  shapeCasts_S1x8x1_S8x1 : S1x8x1.ShapeCasts S8x1
  transposes_S8x1_S1x8_1_0 : S8x1.Transposes [1, 0] S1x8
  slices_S3x1_S1x1_0_0 : S3x1.Slices ![0, 0] S1x1
  shapeCasts_S1x1_S1 : S1x1.ShapeCasts S1
  shapeCasts_S1_S1x1 : S1.ShapeCasts S1x1
  inb_S8000x8_S8000x8_0_0 : ∀ a, (![0, 0] : Fin 2 → Nat) a + S8000x8.size a ≤ S8000x8.size a
  h_S8000x8 : 0 < S8000x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x8_S8000x8 : S1x8.Broadcasts S8000x8
  reduces_S8000x8_S8000 : S8000x8.Reduces [1] S8000
  shapeCasts_S8000_S8000x1 : S8000.ShapeCasts S8000x1
  broadcasts_S1x1_S8000x1 : S1x1.Broadcasts S8000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S8000x1_S8000x128 : S8000x1.Broadcasts S8000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  slices_S3x8x1_S1x8x1_1_0_0 : S3x8x1.Slices ![1, 0, 0] S1x8x1
  slices_S3x1_S1x1_1_0 : S3x1.Slices ![1, 0] S1x1
  slices_S3x128x128_S1x128x128_1_0_0 : S3x128x128.Slices ![1, 0, 0] S1x128x128
  slices_S3x128_S1x128_1_0 : S3x128.Slices ![1, 0] S1x128
  slices_S3x8x1_S1x8x1_2_0_0 : S3x8x1.Slices ![2, 0, 0] S1x8x1
  slices_S3x1_S1x1_2_0 : S3x1.Slices ![2, 0] S1x1
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x8.size a ≤ S800000x8.size a
  hwx0_0 : ∀ i : grid0.Coords, EltTy.bits .f32 = 32 ∨ (Rect.block (s := S800000x8) S8000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S50000x128.size a
  hwx1_4 : ∀ i : grid1.Coords, EltTy.bits .f32 = 32 ∨ (Rect.block (s := S50000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x8.size a ≤ S800000x8.size a
  hwx2_0 : ∀ i : grid2.Coords, EltTy.bits .f32 = 32 ∨ (Rect.block (s := S800000x8) S8000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x128.size a ≤ S800000x128.size a
  hwx2_5 : ∀ i : grid2.Coords, EltTy.bits .f32 = 32 ∨ (Rect.block (s := S800000x128) S8000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S50000x128.size a
  hwx3_4 : ∀ i : grid3.Coords, EltTy.bits .f32 = 32 ∨ (Rect.block (s := S50000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x8.size a ≤ S800000x8.size a
  hwx4_0 : ∀ i : grid4.Coords, EltTy.bits .f32 = 32 ∨ (Rect.block (s := S800000x8) S8000x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .f32 = 32 ∨ (Rect.block (s := S800000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x8.size a ≤ S1x8.size a
  hwx4_3 : ∀ i : grid4.Coords, EltTy.bits .f32 = 32 ∨ (Rect.block (s := S1x8) S1x8.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x128.size a ≤ S800000x128.size a
  hwx4_5 : ∀ i : grid4.Coords, EltTy.bits .f32 = 32 ∨ (Rect.block (s := S800000x128) S8000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S50000x128.size a
  hwx5_3 : ∀ i : grid5.Coords, EltTy.bits .f32 = 32 ∨ (Rect.block (s := S50000x128) S10000x128.size (cc5_transform_3 i) (hinb5_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg2) S8000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S10000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S8000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S8000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S8000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S10000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v61) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg2) S8000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S8000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x8.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S8000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v85) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x8 : Shape := ⟨2, ![800000, 8]⟩
abbrev S3x128x128 : Shape := ⟨3, ![3, 128, 128]⟩
abbrev S3x128 : Shape := ⟨2, ![3, 128]⟩
abbrev S3x8x1 : Shape := ⟨3, ![3, 8, 1]⟩
abbrev S3x1 : Shape := ⟨2, ![3, 1]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x8x1 : Shape := ⟨3, ![1, 8, 1]⟩
abbrev S8x1 : Shape := ⟨2, ![8, 1]⟩
abbrev S1x1 : Shape := ⟨2, ![1, 1]⟩
abbrev S1 : Shape := ⟨1, ![1]⟩
abbrev S800000x1 : Shape := ⟨2, ![800000, 1]⟩
abbrev S_ : Shape := ⟨0, ![]⟩
abbrev S800000x128 : Shape := ⟨2, ![800000, 128]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S2x800000, .i32⟩
  | 2 => ⟨S800000x8, .f32⟩
  | 3 => ⟨S3x128x128, .f32⟩
  | 4 => ⟨S3x128, .f32⟩
  | 5 => ⟨S3x8x1, .f32⟩
  | 6 => ⟨S3x1, .f32⟩
  | 7 => ⟨S1x800000, .i32⟩
  | 8 => ⟨S800000, .i32⟩
  | 9 => ⟨S1x800000, .i32⟩
  | 10 => ⟨S800000, .i32⟩
  | 11 => ⟨S1x128x128, .f32⟩
  | 12 => ⟨S128x128, .f32⟩
  | 13 => ⟨S1x128, .f32⟩
  | 14 => ⟨S128, .f32⟩
  | 15 => ⟨S1x8x1, .f32⟩
  | 16 => ⟨S8x1, .f32⟩
  | 17 => ⟨S1x1, .f32⟩
  | 18 => ⟨S1, .f32⟩
  | 19 => ⟨S800000x1, .f32⟩
  | 20 => ⟨S1x1, .f32⟩
  | 21 => ⟨S800000x1, .f32⟩
  | 22 => ⟨S800000x1, .f32⟩
  | 23 => ⟨S_, .f32⟩
  | 24 => ⟨S800000x1, .f32⟩
  | 25 => ⟨S800000x1, .f32⟩
  | 26 => ⟨S800000x1, .f32⟩
  | 27 => ⟨S800000x1, .f32⟩
  | 28 => ⟨S800000x1, .i1⟩
  | 29 => ⟨S800000x1, .f32⟩
  | 30 => ⟨S800000x1, .f32⟩
  | 31 => ⟨S800000x1, .f32⟩
  | 32 => ⟨S800000x1, .f32⟩
  | 33 => ⟨S800000x1, .f32⟩
  | 34 => ⟨S800000x1, .f32⟩
  | 35 => ⟨S800000x1, .f32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S1x128x128, .f32⟩
  | 71 => ⟨S128x128, .f32⟩
  | 72 => ⟨S1x128, .f32⟩
  | 73 => ⟨S128, .f32⟩
  | 74 => ⟨S1x8x1, .f32⟩
  | 75 => ⟨S8x1, .f32⟩
  | 76 => ⟨S1x1, .f32⟩
  | 77 => ⟨S1, .f32⟩
  | 78 => ⟨S800000x1, .f32⟩
  | 79 => ⟨S1x1, .f32⟩
  | 80 => ⟨S800000x1, .f32⟩
  | 81 => ⟨S800000x1, .f32⟩
  | 82 => ⟨S_, .f32⟩
  | 83 => ⟨S800000x1, .f32⟩
  | 84 => ⟨S800000x1, .f32⟩
  | 85 => ⟨S800000x1, .f32⟩
  | 86 => ⟨S800000x1, .f32⟩
  | 87 => ⟨S800000x1, .i1⟩
  | 88 => ⟨S800000x1, .f32⟩
  | 89 => ⟨S800000x1, .f32⟩
  | 90 => ⟨S800000x1, .f32⟩
  | 91 => ⟨S800000x1, .f32⟩
  | 92 => ⟨S800000x1, .f32⟩
  | 93 => ⟨S800000x1, .f32⟩
  | 94 => ⟨S800000x1, .f32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x128, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x128, .f32⟩
  | 2 => ⟨S128x128, .f32⟩
  | 3 => ⟨S1x128, .f32⟩
  | 4 => ⟨S128, .f32⟩
  | 5 => ⟨S1x8x1, .f32⟩
  | 6 => ⟨S8x1, .f32⟩
  | 7 => ⟨S1x1, .f32⟩
  | 8 => ⟨S1, .f32⟩
  | 9 => ⟨S800000x1, .f32⟩
  | 10 => ⟨S1x1, .f32⟩
  | 11 => ⟨S800000x1, .f32⟩
  | 12 => ⟨S800000x1, .f32⟩
  | 13 => ⟨S_, .f32⟩
  | 14 => ⟨S800000x1, .f32⟩
  | 15 => ⟨S800000x1, .f32⟩
  | 16 => ⟨S800000x1, .f32⟩
  | 17 => ⟨S800000x1, .f32⟩
  | 18 => ⟨S800000x1, .i1⟩
  | 19 => ⟨S800000x1, .f32⟩
  | 20 => ⟨S800000x1, .f32⟩
  | 21 => ⟨S800000x1, .f32⟩
  | 22 => ⟨S800000x1, .f32⟩
  | 23 => ⟨S800000x1, .f32⟩
  | 24 => ⟨S800000x1, .f32⟩
  | 25 => ⟨S800000x1, .f32⟩
  | 26 => ⟨S800000x1, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x128, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x128, .f32⟩
  | 53 => ⟨S1x128, .f32⟩
  | 54 => ⟨S50000x128, .f32⟩
  | 55 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call1_cst : Ref sig .tc := ⟨.hbm, 66, rfl⟩
abbrev main_call1_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_v55 : Ref sig .tc := ⟨.hbm, 95, rfl⟩
abbrev main_c_3 : Ref sig .tc := ⟨.hbm, 96, rfl⟩
abbrev main_v56 : Ref sig .tc := ⟨.hbm, 97, rfl⟩
abbrev main_v57 : Ref sig .tc := ⟨.hbm, 98, rfl⟩
abbrev main_c_4 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_5 : Ref sig .tc := ⟨.hbm, 105, rfl⟩
abbrev main_v63 : Ref sig .tc := ⟨.hbm, 106, rfl⟩
abbrev main_v64 : Ref sig .tc := ⟨.hbm, 107, rfl⟩
abbrev main_c_6 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_7 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_call3_cst : Ref sig .tc := ⟨.hbm, 125, rfl⟩
abbrev main_call3_v0 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call4_cst : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_v94 : Ref sig .tc := ⟨.hbm, 154, rfl⟩
abbrev main_c_8 : Ref sig .tc := ⟨.hbm, 155, rfl⟩
abbrev main_v95 : Ref sig .tc := ⟨.hbm, 156, rfl⟩
abbrev main_v96 : Ref sig .tc := ⟨.hbm, 157, rfl⟩
abbrev main_c_9 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_10 : Ref sig .tc := ⟨.hbm, 164, rfl⟩
abbrev main_v102 : Ref sig .tc := ⟨.hbm, 165, rfl⟩
abbrev main_v103 : Ref sig .tc := ⟨.hbm, 166, rfl⟩
abbrev main_c_11 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_12 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x8x1_S1x8x1_0_0_0 : S3x8x1.Slices ![0, 0, 0] S1x8x1
  shapeCasts_S1x8x1_S8x1 : S1x8x1.ShapeCasts S8x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x8x1_S1x8x1_1_0_0 : S3x8x1.Slices ![1, 0, 0] S1x8x1
  slices_S3x1_S1x1_1_0 : S3x1.Slices ![1, 0] S1x1
  slices_S3x128x128_S1x128x128_2_0_0 : S3x128x128.Slices ![2, 0, 0] S1x128x128
  slices_S3x128_S1x128_2_0 : S3x128.Slices ![2, 0] S1x128
  slices_S3x8x1_S1x8x1_2_0_0 : S3x8x1.Slices ![2, 0, 0] S1x8x1
  slices_S3x1_S1x1_2_0 : S3x1.Slices ![2, 0] S1x1
  dot_S800000x8_S8x1_S800000x1_1_0_0_1_n_n_wf : DotDims.WF S800000x8 S8x1 S800000x1 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S800000x8_S8x1_S800000x1_1_0_0_1_n_n : DotDims S800000x8 S8x1 S800000x1 where
  lhsContracting := [1]
  rhsContracting := [0]
  lhsNonContracting := [0]
  rhsNonContracting := [1]
  lhsBatch := []
  rhsBatch := []
  wf := dot_S800000x8_S8x1_S800000x1_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named. The program is six kernel launches among stretches of host
  operations; its memory at each boundary is a fold from the launch memory (a stretch applies its operations, a launch
  replaces its arrays by what its write-backs leave). Every weakly fair execution terminates with every unscoped
  buffer at the fold's last stage: read at the result buffer this names the result, read at an argument it gives the
  argument back.
-/
import proofs.«142588_j65300682769036_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    stage of the memory fold and every argument as launched. -/
theorem run_result : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v90 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.RunValue

end
-- ==== Proof.HostStages.lean ====
/-
  The host steps of the kernel's program as functions of their operands, on the extended reals: the two rows of the
  edge list as index vectors; an index column as the gathers take it (a negative index moved up by the number of nodes)
  and as the sums take it (as it is); the gather of feature rows for every edge; the sum of edge rows into their nodes
  from a zero array; and each layer's parameters cut out of the stacked parameter arrays (the edge weights laid as a row,
  the offset as a one-by-one array, the weight matrix, the bias vector).
-/
import proofs.«142588_j65300682769036_1_alg».proof.Proof.Gen.KernelIdeal
import Idealize.ShloMosaic.Lib.ValueIdx
import Idealize.ShloMosaic.Lib.Pipeline.Value

noncomputable section

namespace Cert.KernelIdeal.Stages

open Cert.KernelIdeal Cert.KernelIdeal.Gen Idealize.ShloMosaic Idealize.ShloMosaic.TcCoe

abbrev Nodes := (⟨S50000x128, .f32⟩ : BufTy).Contents (Elt Ideal)
abbrev Edges := (⟨S800000x128, .f32⟩ : BufTy).Contents (Elt Ideal)
abbrev EdgeList := (⟨S2x800000, .i32⟩ : BufTy).Contents (Elt Ideal)
abbrev IdxVec := (⟨S800000, .i32⟩ : BufTy).Contents (Elt Ideal)
abbrev IdxCol := (⟨S800000x1, .i32⟩ : BufTy).Contents (Elt Ideal)

/-- One row of the edge list as a vector of node indices. -/
def endVec (ei : EdgeList) (o : Fin 2 → ℕ) (h : S2x800000.Slices o S1x800000) : IdxVec :=
  shapeCast S800000 (extractStridedSlice S1x800000 o ei h) shapeCasts_S1x800000_S800000

/-- The source ends and the target ends. -/
def srcVec (ei : EdgeList) : IdxVec := endVec ei ![0, 0] slices_S2x800000_S1x800000_0_0
def dstVec (ei : EdgeList) : IdxVec := endVec ei ![1, 0] slices_S2x800000_S1x800000_1_0

/-- An index vector as the gathers take it: a negative index has the number of nodes added, then the vector is
    laid as a column. -/
def wrapCol (v : IdxVec) : IdxCol :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- An index vector as the sums take it: laid as a column as it is. -/
def plainCol (v : IdxVec) : IdxCol := broadcastInDim S800000x1 ![0] bcast_S800000_S800000x1_0 v

/-- The feature rows the index column names, one per edge. -/
def rowsAt (col : IdxCol) (x : Nodes) : Edges := Host.gather gather_S50000x128_S800000x1_S800000x128_1_0_n_n_0_1_1128 x col

/-- The edge rows summed into the nodes the index column names, from a zero array. -/
def sumInto (col : IdxCol) (u : Edges) : Nodes :=
  Host.scatterAdd scatter_S50000x128_S800000x1_S800000x128_1_0_0_1 (broadcastInDim S50000x128 ![] bcast_S_S50000x128 (constant (F := Ideal) S_ .f32 0x00000000#32)) col u

/-- A layer's edge weights, cut from the stack and laid as a row. -/
def ewRow (a5 : (⟨S3x8x1, .f32⟩ : BufTy).Contents (Elt Ideal)) (o : Fin 3 → ℕ) (h : S3x8x1.Slices o S1x8x1) :
    (⟨S1x8, .f32⟩ : BufTy).Contents (Elt Ideal) :=
  transpose S1x8 [1, 0] (shapeCast S8x1 (extractStridedSlice S1x8x1 o a5 h) shapeCasts_S1x8x1_S8x1) transposes_S8x1_S1x8_1_0

/-- A layer's offset, cut from the stack, as a one-by-one array. -/
def ebCell (a6 : (⟨S3x1, .f32⟩ : BufTy).Contents (Elt Ideal)) (o : Fin 2 → ℕ) (h : S3x1.Slices o S1x1) :
    (⟨S1x1, .f32⟩ : BufTy).Contents (Elt Ideal) :=
  shapeCast S1x1 (shapeCast S1 (extractStridedSlice S1x1 o a6 h) shapeCasts_S1x1_S1) shapeCasts_S1_S1x1

/-- A layer's weight matrix, cut from the stack. -/
def wMat (a3 : (⟨S3x128x128, .f32⟩ : BufTy).Contents (Elt Ideal)) (o : Fin 3 → ℕ) (h : S3x128x128.Slices o S1x128x128) :
    (⟨S128x128, .f32⟩ : BufTy).Contents (Elt Ideal) :=
  shapeCast S128x128 (extractStridedSlice S1x128x128 o a3 h) shapeCasts_S1x128x128_S128x128

/-- A layer's bias vector, cut from the stack. -/
def bVec (a4 : (⟨S3x128, .f32⟩ : BufTy).Contents (Elt Ideal)) (o : Fin 2 → ℕ) (h : S3x128.Slices o S1x128) :
    (⟨S128, .f32⟩ : BufTy).Contents (Elt Ideal) :=
  shapeCast S128 (extractStridedSlice S1x128 o a4 h) shapeCasts_S1x128_S128

end Cert.KernelIdeal.Stages

end
-- ==== Proof.Persist.lean ====
/-
  Buffers that outlive a stretch of host operations or a launch. The program's memory at each of its twelve boundaries
  is a fold from the launch memory: a stretch changes only the buffers its operations write, a launch only its output
  array. So an argument array read at any boundary is the argument as launched, the two index vectors cut from the
  edge list in the first stretch are the same vectors at every later boundary, and the first layer's result is still
  in place when the second layer's node launch reads it.
-/
import proofs.«142588_j65300682769036_1_alg».proof.Proof.Gen.KernelIdeal.Frame
import proofs.«142588_j65300682769036_1_alg».proof.Proof.HostStages

set_option maxRecDepth 16384

noncomputable section

namespace Cert.KernelIdeal.Persist

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- A buffer none of a stretch's operations writes holds after the stretch what it held before. -/
local macro "untouched_by " ops:ident : tactic => `(tactic|
  exact Idealize.ShloMosaic.StableHlo.after_of_forall_not_mem _ _ (List.forall_iff_forall_mem.mp (by
    simp only [$ops:ident, List.flatten_cons, List.flatten_nil, List.append_nil, List.cons_append, List.nil_append, List.Forall,
      Idealize.ShloMosaic.StableHlo.nullary_writes, Idealize.ShloMosaic.StableHlo.unary_writes, Idealize.ShloMosaic.StableHlo.binary_writes,
      Idealize.ShloMosaic.StableHlo.ternary_writes, Idealize.ShloMosaic.StableHlo.quaternary_writes, Idealize.ShloMosaic.StableHlo.reshape_writes,
      Idealize.ShloMosaic.StableHlo.binaryIndexed_writes, Finset.mem_singleton]
    repeat' apply And.intro
    all_goals exact Idealize.ShloMosaic.StableHlo.devRef_ne_of_ne (by decide))))

/-! ## main_arg0 -/

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (show W1 m ρ c (Proc.devRef .tc main_arg0) = W0 m ρ c (Proc.devRef .tc main_arg0) from by untouched_by hostOps0).trans (W0_arg0 m ρ c)
theorem W2_arg0 (c : Dev nD) : W2 m ρ c (Proc.devRef .tc main_arg0) = m ((c : Thread nD τ).loc main_arg0) :=
  (show W2 m ρ c (Proc.devRef .tc main_arg0) = W1 m ρ c (Proc.devRef .tc main_arg0) from W2_of_ne m ρ c main_arg0 (by decide)).trans (W1_arg0 m ρ c)
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) from by untouched_by hostOps1).trans (W2_arg0 m ρ c)

/-! ## main_arg2 -/

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) from by untouched_by hostOps0).trans (W0_arg2 m ρ c)
theorem W2_arg2 (c : Dev nD) : W2 m ρ c (Proc.devRef .tc main_arg2) = m ((c : Thread nD τ).loc main_arg2) :=
  (show W2 m ρ c (Proc.devRef .tc main_arg2) = W1 m ρ c (Proc.devRef .tc main_arg2) from (W2_arr m ρ c 0).trans (((dat0 (V1 m ρ) c).arrAt_in 0 rfl _).trans (A_eq0 (V1 m ρ) c 0))).trans (W1_arg2 m ρ c)
theorem W3_arg2 (c : Dev nD) : W3 m ρ c (Proc.devRef .tc main_arg2) = m ((c : Thread nD τ).loc main_arg2) :=
  (show W3 m ρ c (Proc.devRef .tc main_arg2) = W2 m ρ c (Proc.devRef .tc main_arg2) from by untouched_by hostOps1).trans (W2_arg2 m ρ c)
theorem W4_arg2 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (W3_arg2 m ρ c)
theorem W5_arg2 (c : Dev nD) : W5 m ρ c (Proc.devRef .tc main_arg2) = m ((c : Thread nD τ).loc main_arg2) :=
  (show W5 m ρ c (Proc.devRef .tc main_arg2) = W4 m ρ c (Proc.devRef .tc main_arg2) from by untouched_by hostOps2).trans (W4_arg2 m ρ c)
theorem W6_arg2 (c : Dev nD) : W6 m ρ c (Proc.devRef .tc main_arg2) = m ((c : Thread nD τ).loc main_arg2) :=
  (show W6 m ρ c (Proc.devRef .tc main_arg2) = W5 m ρ c (Proc.devRef .tc main_arg2) from (W6_arr m ρ c 0).trans (((dat2 (V5 m ρ) c).arrAt_in 0 rfl _).trans (A_eq2 (V5 m ρ) c 0))).trans (W5_arg2 m ρ c)
theorem W7_arg2 (c : Dev nD) : W7 m ρ c (Proc.devRef .tc main_arg2) = m ((c : Thread nD τ).loc main_arg2) :=
  (show W7 m ρ c (Proc.devRef .tc main_arg2) = W6 m ρ c (Proc.devRef .tc main_arg2) from by untouched_by hostOps3).trans (W6_arg2 m ρ c)
theorem W8_arg2 (c : Dev nD) : W8 m ρ c (Proc.devRef .tc main_arg2) = m ((c : Thread nD τ).loc main_arg2) :=
  (show W8 m ρ c (Proc.devRef .tc main_arg2) = W7 m ρ c (Proc.devRef .tc main_arg2) from W8_of_ne m ρ c main_arg2 (by decide)).trans (W7_arg2 m ρ c)
theorem W9_arg2 (c : Dev nD) : W9 m ρ c (Proc.devRef .tc main_arg2) = m ((c : Thread nD τ).loc main_arg2) :=
  (show W9 m ρ c (Proc.devRef .tc main_arg2) = W8 m ρ c (Proc.devRef .tc main_arg2) from by untouched_by hostOps4).trans (W8_arg2 m ρ c)

/-! ## main_arg3 -/

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) from by untouched_by hostOps0).trans (W0_arg3 m ρ c)
theorem W2_arg3 (c : Dev nD) : W2 m ρ c (Proc.devRef .tc main_arg3) = m ((c : Thread nD τ).loc main_arg3) :=
  (show W2 m ρ c (Proc.devRef .tc main_arg3) = W1 m ρ c (Proc.devRef .tc main_arg3) from W2_of_ne m ρ c main_arg3 (by decide)).trans (W1_arg3 m ρ c)
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) from by untouched_by hostOps1).trans (W2_arg3 m ρ c)
theorem W4_arg3 (c : Dev nD) : W4 m ρ c (Proc.devRef .tc main_arg3) = m ((c : Thread nD τ).loc main_arg3) :=
  (show W4 m ρ c (Proc.devRef .tc main_arg3) = W3 m ρ c (Proc.devRef .tc main_arg3) from W4_of_ne m ρ c main_arg3 (by decide)).trans (W3_arg3 m ρ c)
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) from by untouched_by hostOps2).trans (W4_arg3 m ρ c)
theorem W6_arg3 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (W5_arg3 m ρ c)
theorem W7_arg3 (c : Dev nD) : W7 m ρ c (Proc.devRef .tc main_arg3) = m ((c : Thread nD τ).loc main_arg3) :=
  (show W7 m ρ c (Proc.devRef .tc main_arg3) = W6 m ρ c (Proc.devRef .tc main_arg3) from by untouched_by hostOps3).trans (W6_arg3 m ρ c)
theorem W8_arg3 (c : Dev nD) : W8 m ρ c (Proc.devRef .tc main_arg3) = m ((c : Thread nD τ).loc main_arg3) :=
  (show W8 m ρ c (Proc.devRef .tc main_arg3) = W7 m ρ c (Proc.devRef .tc main_arg3) from W8_of_ne m ρ c main_arg3 (by decide)).trans (W7_arg3 m ρ c)
theorem W9_arg3 (c : Dev nD) : W9 m ρ c (Proc.devRef .tc main_arg3) = m ((c : Thread nD τ).loc main_arg3) :=
  (show W9 m ρ c (Proc.devRef .tc main_arg3) = W8 m ρ c (Proc.devRef .tc main_arg3) from by untouched_by hostOps4).trans (W8_arg3 m ρ c)
theorem W10_arg3 (c : Dev nD) : W10 m ρ c (Proc.devRef .tc main_arg3) = m ((c : Thread nD τ).loc main_arg3) :=
  (show W10 m ρ c (Proc.devRef .tc main_arg3) = W9 m ρ c (Proc.devRef .tc main_arg3) from W10_of_ne m ρ c main_arg3 (by decide)).trans (W9_arg3 m ρ c)

/-! ## main_arg4 -/

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) from by untouched_by hostOps0).trans (W0_arg4 m ρ c)
theorem W2_arg4 (c : Dev nD) : W2 m ρ c (Proc.devRef .tc main_arg4) = m ((c : Thread nD τ).loc main_arg4) :=
  (show W2 m ρ c (Proc.devRef .tc main_arg4) = W1 m ρ c (Proc.devRef .tc main_arg4) from W2_of_ne m ρ c main_arg4 (by decide)).trans (W1_arg4 m ρ c)
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) from by untouched_by hostOps1).trans (W2_arg4 m ρ c)
theorem W4_arg4 (c : Dev nD) : W4 m ρ c (Proc.devRef .tc main_arg4) = m ((c : Thread nD τ).loc main_arg4) :=
  (show W4 m ρ c (Proc.devRef .tc main_arg4) = W3 m ρ c (Proc.devRef .tc main_arg4) from W4_of_ne m ρ c main_arg4 (by decide)).trans (W3_arg4 m ρ c)
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) from by untouched_by hostOps2).trans (W4_arg4 m ρ c)
theorem W6_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_arg4 m ρ c)
theorem W7_arg4 (c : Dev nD) : W7 m ρ c (Proc.devRef .tc main_arg4) = m ((c : Thread nD τ).loc main_arg4) :=
  (show W7 m ρ c (Proc.devRef .tc main_arg4) = W6 m ρ c (Proc.devRef .tc main_arg4) from by untouched_by hostOps3).trans (W6_arg4 m ρ c)
theorem W8_arg4 (c : Dev nD) : W8 m ρ c (Proc.devRef .tc main_arg4) = m ((c : Thread nD τ).loc main_arg4) :=
  (show W8 m ρ c (Proc.devRef .tc main_arg4) = W7 m ρ c (Proc.devRef .tc main_arg4) from W8_of_ne m ρ c main_arg4 (by decide)).trans (W7_arg4 m ρ c)
theorem W9_arg4 (c : Dev nD) : W9 m ρ c (Proc.devRef .tc main_arg4) = m ((c : Thread nD τ).loc main_arg4) :=
  (show W9 m ρ c (Proc.devRef .tc main_arg4) = W8 m ρ c (Proc.devRef .tc main_arg4) from by untouched_by hostOps4).trans (W8_arg4 m ρ c)
theorem W10_arg4 (c : Dev nD) : W10 m ρ c (Proc.devRef .tc main_arg4) = m ((c : Thread nD τ).loc main_arg4) :=
  (show W10 m ρ c (Proc.devRef .tc main_arg4) = W9 m ρ c (Proc.devRef .tc main_arg4) from W10_of_ne m ρ c main_arg4 (by decide)).trans (W9_arg4 m ρ c)

/-! ## main_arg5 -/

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) from by untouched_by hostOps0).trans (W0_arg5 m ρ c)
theorem W2_arg5 (c : Dev nD) : W2 m ρ c (Proc.devRef .tc main_arg5) = m ((c : Thread nD τ).loc main_arg5) :=
  (show W2 m ρ c (Proc.devRef .tc main_arg5) = W1 m ρ c (Proc.devRef .tc main_arg5) from W2_of_ne m ρ c main_arg5 (by decide)).trans (W1_arg5 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) from by untouched_by hostOps1).trans (W2_arg5 m ρ c)
theorem W4_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_arg5 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) from by untouched_by hostOps2).trans (W4_arg5 m ρ c)
theorem W6_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_arg5 m ρ c)
theorem W7_arg5 (c : Dev nD) : W7 m ρ c (Proc.devRef .tc main_arg5) = m ((c : Thread nD τ).loc main_arg5) :=
  (show W7 m ρ c (Proc.devRef .tc main_arg5) = W6 m ρ c (Proc.devRef .tc main_arg5) from by untouched_by hostOps3).trans (W6_arg5 m ρ c)
theorem W8_arg5 (c : Dev nD) : W8 m ρ c (Proc.devRef .tc main_arg5) = m ((c : Thread nD τ).loc main_arg5) :=
  (show W8 m ρ c (Proc.devRef .tc main_arg5) = W7 m ρ c (Proc.devRef .tc main_arg5) from W8_of_ne m ρ c main_arg5 (by decide)).trans (W7_arg5 m ρ c)

/-! ## main_arg6 -/

theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) from by untouched_by hostOps0).trans (W0_arg6 m ρ c)
theorem W2_arg6 (c : Dev nD) : W2 m ρ c (Proc.devRef .tc main_arg6) = m ((c : Thread nD τ).loc main_arg6) :=
  (show W2 m ρ c (Proc.devRef .tc main_arg6) = W1 m ρ c (Proc.devRef .tc main_arg6) from W2_of_ne m ρ c main_arg6 (by decide)).trans (W1_arg6 m ρ c)
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) from by untouched_by hostOps1).trans (W2_arg6 m ρ c)
theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from W4_of_ne m ρ c main_arg6 (by decide)).trans (W3_arg6 m ρ c)
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) from by untouched_by hostOps2).trans (W4_arg6 m ρ c)
theorem W6_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_arg6 m ρ c)
theorem W7_arg6 (c : Dev nD) : W7 m ρ c (Proc.devRef .tc main_arg6) = m ((c : Thread nD τ).loc main_arg6) :=
  (show W7 m ρ c (Proc.devRef .tc main_arg6) = W6 m ρ c (Proc.devRef .tc main_arg6) from by untouched_by hostOps3).trans (W6_arg6 m ρ c)
theorem W8_arg6 (c : Dev nD) : W8 m ρ c (Proc.devRef .tc main_arg6) = m ((c : Thread nD τ).loc main_arg6) :=
  (show W8 m ρ c (Proc.devRef .tc main_arg6) = W7 m ρ c (Proc.devRef .tc main_arg6) from W8_of_ne m ρ c main_arg6 (by decide)).trans (W7_arg6 m ρ c)

/-! ## main_v1 -/

theorem W1_src (c : Dev nD) : W1 m ρ c (Proc.devRef .tc main_v1) = Stages.srcVec (m ((c : Thread nD τ).loc main_arg1)) := by
  show StableHlo.after hostOps0 (W0 m ρ c) (Proc.devRef .tc main_v1) = _
  after_results_simp
  rfl
theorem W2_src (c : Dev nD) : W2 m ρ c (Proc.devRef .tc main_v1) = Stages.srcVec (m ((c : Thread nD τ).loc main_arg1)) :=
  (show W2 m ρ c (Proc.devRef .tc main_v1) = W1 m ρ c (Proc.devRef .tc main_v1) from W2_of_ne m ρ c main_v1 (by decide)).trans (W1_src m ρ c)
theorem W3_src (c : Dev nD) : W3 m ρ c (Proc.devRef .tc main_v1) = Stages.srcVec (m ((c : Thread nD τ).loc main_arg1)) :=
  (show W3 m ρ c (Proc.devRef .tc main_v1) = W2 m ρ c (Proc.devRef .tc main_v1) from by untouched_by hostOps1).trans (W2_src m ρ c)
theorem W4_src (c : Dev nD) : W4 m ρ c (Proc.devRef .tc main_v1) = Stages.srcVec (m ((c : Thread nD τ).loc main_arg1)) :=
  (show W4 m ρ c (Proc.devRef .tc main_v1) = W3 m ρ c (Proc.devRef .tc main_v1) from W4_of_ne m ρ c main_v1 (by decide)).trans (W3_src m ρ c)
theorem W5_src (c : Dev nD) : W5 m ρ c (Proc.devRef .tc main_v1) = Stages.srcVec (m ((c : Thread nD τ).loc main_arg1)) :=
  (show W5 m ρ c (Proc.devRef .tc main_v1) = W4 m ρ c (Proc.devRef .tc main_v1) from by untouched_by hostOps2).trans (W4_src m ρ c)
theorem W6_src (c : Dev nD) : W6 m ρ c (Proc.devRef .tc main_v1) = Stages.srcVec (m ((c : Thread nD τ).loc main_arg1)) :=
  (show W6 m ρ c (Proc.devRef .tc main_v1) = W5 m ρ c (Proc.devRef .tc main_v1) from W6_of_ne m ρ c main_v1 (by decide)).trans (W5_src m ρ c)
theorem W7_src (c : Dev nD) : W7 m ρ c (Proc.devRef .tc main_v1) = Stages.srcVec (m ((c : Thread nD τ).loc main_arg1)) :=
  (show W7 m ρ c (Proc.devRef .tc main_v1) = W6 m ρ c (Proc.devRef .tc main_v1) from by untouched_by hostOps3).trans (W6_src m ρ c)
theorem W8_src (c : Dev nD) : W8 m ρ c (Proc.devRef .tc main_v1) = Stages.srcVec (m ((c : Thread nD τ).loc main_arg1)) :=
  (show W8 m ρ c (Proc.devRef .tc main_v1) = W7 m ρ c (Proc.devRef .tc main_v1) from W8_of_ne m ρ c main_v1 (by decide)).trans (W7_src m ρ c)

/-! ## main_v3 -/

theorem W1_dst (c : Dev nD) : W1 m ρ c (Proc.devRef .tc main_v3) = Stages.dstVec (m ((c : Thread nD τ).loc main_arg1)) := by
  show StableHlo.after hostOps0 (W0 m ρ c) (Proc.devRef .tc main_v3) = _
  after_results_simp
  rfl
theorem W2_dst (c : Dev nD) : W2 m ρ c (Proc.devRef .tc main_v3) = Stages.dstVec (m ((c : Thread nD τ).loc main_arg1)) :=
  (show W2 m ρ c (Proc.devRef .tc main_v3) = W1 m ρ c (Proc.devRef .tc main_v3) from W2_of_ne m ρ c main_v3 (by decide)).trans (W1_dst m ρ c)
theorem W3_dst (c : Dev nD) : W3 m ρ c (Proc.devRef .tc main_v3) = Stages.dstVec (m ((c : Thread nD τ).loc main_arg1)) :=
  (show W3 m ρ c (Proc.devRef .tc main_v3) = W2 m ρ c (Proc.devRef .tc main_v3) from by untouched_by hostOps1).trans (W2_dst m ρ c)
theorem W4_dst (c : Dev nD) : W4 m ρ c (Proc.devRef .tc main_v3) = Stages.dstVec (m ((c : Thread nD τ).loc main_arg1)) :=
  (show W4 m ρ c (Proc.devRef .tc main_v3) = W3 m ρ c (Proc.devRef .tc main_v3) from W4_of_ne m ρ c main_v3 (by decide)).trans (W3_dst m ρ c)
theorem W5_dst (c : Dev nD) : W5 m ρ c (Proc.devRef .tc main_v3) = Stages.dstVec (m ((c : Thread nD τ).loc main_arg1)) :=
  (show W5 m ρ c (Proc.devRef .tc main_v3) = W4 m ρ c (Proc.devRef .tc main_v3) from by untouched_by hostOps2).trans (W4_dst m ρ c)
theorem W6_dst (c : Dev nD) : W6 m ρ c (Proc.devRef .tc main_v3) = Stages.dstVec (m ((c : Thread nD τ).loc main_arg1)) :=
  (show W6 m ρ c (Proc.devRef .tc main_v3) = W5 m ρ c (Proc.devRef .tc main_v3) from W6_of_ne m ρ c main_v3 (by decide)).trans (W5_dst m ρ c)
theorem W7_dst (c : Dev nD) : W7 m ρ c (Proc.devRef .tc main_v3) = Stages.dstVec (m ((c : Thread nD τ).loc main_arg1)) :=
  (show W7 m ρ c (Proc.devRef .tc main_v3) = W6 m ρ c (Proc.devRef .tc main_v3) from by untouched_by hostOps3).trans (W6_dst m ρ c)
theorem W8_dst (c : Dev nD) : W8 m ρ c (Proc.devRef .tc main_v3) = Stages.dstVec (m ((c : Thread nD τ).loc main_arg1)) :=
  (show W8 m ρ c (Proc.devRef .tc main_v3) = W7 m ρ c (Proc.devRef .tc main_v3) from W8_of_ne m ρ c main_v3 (by decide)).trans (W7_dst m ρ c)
theorem W9_dst (c : Dev nD) : W9 m ρ c (Proc.devRef .tc main_v3) = Stages.dstVec (m ((c : Thread nD τ).loc main_arg1)) :=
  (show W9 m ρ c (Proc.devRef .tc main_v3) = W8 m ρ c (Proc.devRef .tc main_v3) from by untouched_by hostOps4).trans (W8_dst m ρ c)
theorem W10_dst (c : Dev nD) : W10 m ρ c (Proc.devRef .tc main_v3) = Stages.dstVec (m ((c : Thread nD τ).loc main_arg1)) :=
  (show W10 m ρ c (Proc.devRef .tc main_v3) = W9 m ρ c (Proc.devRef .tc main_v3) from W10_of_ne m ρ c main_v3 (by decide)).trans (W9_dst m ρ c)

/-! ## main_v32 -/

theorem W4_x1 (c : Dev nD) : W4 m ρ c (Proc.devRef .tc main_v32) = W4 m ρ c (Proc.devRef .tc main_v32) := rfl
theorem W5_x1 (c : Dev nD) : W5 m ρ c (Proc.devRef .tc main_v32) = W4 m ρ c (Proc.devRef .tc main_v32) :=
  (show W5 m ρ c (Proc.devRef .tc main_v32) = W4 m ρ c (Proc.devRef .tc main_v32) from by untouched_by hostOps2).trans (W4_x1 m ρ c)
theorem W6_x1 (c : Dev nD) : W6 m ρ c (Proc.devRef .tc main_v32) = W4 m ρ c (Proc.devRef .tc main_v32) :=
  (show W6 m ρ c (Proc.devRef .tc main_v32) = W5 m ρ c (Proc.devRef .tc main_v32) from W6_of_ne m ρ c main_v32 (by decide)).trans (W5_x1 m ρ c)
theorem W7_x1 (c : Dev nD) : W7 m ρ c (Proc.devRef .tc main_v32) = W4 m ρ c (Proc.devRef .tc main_v32) :=
  (show W7 m ρ c (Proc.devRef .tc main_v32) = W6 m ρ c (Proc.devRef .tc main_v32) from by untouched_by hostOps3).trans (W6_x1 m ρ c)

end Cert.KernelIdeal.Persist

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«142588_j65300682769036_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«142588_j65300682769036_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.NetSpec.lean ====
/-
  The network both programs compute, on the extended reals. One layer: every edge gets a weight, the softplus of an
  affine form of its eight attributes; its message is that weight times the difference of the feature rows of its two
  end nodes; the messages are summed into their target nodes; the sums go through a dense layer (a product with a
  weight matrix plus a bias row). The first two layers cut the result at zero and add the layer's input back; the
  last does neither. How rows are fetched for the edges and how messages are summed into nodes is left abstract (two
  maps from node arrays to edge arrays and one back): both programs spell those steps with the same host operations,
  so nothing here depends on what they do with an index that names no node.
-/
import proofs.«142588_j65300682769036_1_alg».proof.Proof.LibRowBlocks

noncomputable section

namespace Cert.EdgeNet

open Idealize.ShloMosaic Idealize.ShloMosaic.ValueIdx Cert.LayoutLib Cert.DenseLib Cert.RowBlocks

/-- The softplus `log (1 + exp s)` in the numerically stable spelling both programs use: `max s 0` plus
    `log1p (exp (-|s - 0|))`, the absolute value spelt as the larger of a number and its negative. -/
def softplus (s : EReal) : EReal := max s 0 + Ideal.log1p (Ideal.exp (-(max (s - 0) (-(s - 0)))))

/-- Edge `p`'s weight: the softplus of the attributes' weighted sum plus the offset. -/
def edgeWeight {M K : ℕ} (ea : (⟨2, ![M, K]⟩ : Shape).Idx → EReal) (w : Fin K → EReal) (b : EReal) (p : Fin M) : EReal :=
  softplus ((∑ k : Fin K, ea (ix2 p k) * w k) + b)

/-- The messages: entry `(p, c)` is edge `p`'s weight times the difference of its two end rows at column `c`. -/
def message {M K C : ℕ} (ea : (⟨2, ![M, K]⟩ : Shape).Idx → EReal) (w : Fin K → EReal) (b : EReal)
    (xs xd : (⟨2, ![M, C]⟩ : Shape).Idx → EReal) : (⟨2, ![M, C]⟩ : Shape).Idx → EReal :=
  fun i => edgeWeight ea w b (i 0) * (xs i - xd i)

/-- A dense layer, the cut at zero, and the layer's input added back. -/
def nodeRes {M K N : ℕ} (agg : (⟨2, ![M, K]⟩ : Shape).Idx → EReal) (W : (⟨2, ![K, N]⟩ : Shape).Idx → EReal) (bb : Fin N → EReal)
    (res : (⟨2, ![M, N]⟩ : Shape).Idx → EReal) : (⟨2, ![M, N]⟩ : Shape).Idx → EReal :=
  plus (relu (affine agg W bb)) res

/-- A message's entry is determined by its edge's attribute row and its two end rows' entries. -/
theorem message_eq_of_row {M M' K C : ℕ} (ea' : (⟨2, ![M', K]⟩ : Shape).Idx → EReal) (ea : (⟨2, ![M, K]⟩ : Shape).Idx → EReal)
    (w : Fin K → EReal) (b : EReal) (xs' xd' : (⟨2, ![M', C]⟩ : Shape).Idx → EReal) (xs xd : (⟨2, ![M, C]⟩ : Shape).Idx → EReal)
    (j : (⟨2, ![M', C]⟩ : Shape).Idx) (i : (⟨2, ![M, C]⟩ : Shape).Idx)
    (hea : ∀ k : Fin K, ea' (ix2 (n0 := M') (j 0) k) = ea (ix2 (n0 := M) (i 0) k)) (hs : xs' j = xs i) (hd : xd' j = xd i) :
    message ea' w b xs' xd' j = message ea w b xs xd i := by
  show softplus ((∑ k : Fin K, ea' (ix2 (n0 := M') (j 0) k) * w k) + b) * (xs' j - xd' j)
    = softplus ((∑ k : Fin K, ea (ix2 (n0 := M) (i 0) k) * w k) + b) * (xs i - xd i)
  rw [hs, hd, Finset.sum_congr rfl fun k _ => by rw [hea k]]

/-- An entry of `relu (P · W + b) + R` is determined by its row of `P` and its entry of `R`. -/
theorem nodeRes_eq_of_row {M M' K N : ℕ} (agg' : (⟨2, ![M', K]⟩ : Shape).Idx → EReal) (agg : (⟨2, ![M, K]⟩ : Shape).Idx → EReal)
    (W : (⟨2, ![K, N]⟩ : Shape).Idx → EReal) (bb : Fin N → EReal)
    (res' : (⟨2, ![M', N]⟩ : Shape).Idx → EReal) (res : (⟨2, ![M, N]⟩ : Shape).Idx → EReal)
    (j : (⟨2, ![M', N]⟩ : Shape).Idx) (i : (⟨2, ![M, N]⟩ : Shape).Idx)
    (hq : (j 1).val = (i 1).val) (hx : ∀ k : Fin K, agg' (ix2 (n0 := M') (j 0) k) = agg (ix2 (n0 := M) (i 0) k)) (hr : res' j = res i) :
    nodeRes agg' W bb res' j = nodeRes agg W bb res i := by
  show max (mm agg' W j + bb (j 1)) 0 + res' j = max (mm agg W i + bb (i 1)) 0 + res i
  have e : (j 1 : Fin N) = (i 1 : Fin N) := Fin.ext hq
  rw [mm_eq_of_row agg' W agg W j i rfl hq hx, hr, e]

/-- An entry of `P · W + b` is determined by its row of `P`. -/
theorem affine_eq_of_row {M M' K N : ℕ} (agg' : (⟨2, ![M', K]⟩ : Shape).Idx → EReal) (agg : (⟨2, ![M, K]⟩ : Shape).Idx → EReal)
    (W : (⟨2, ![K, N]⟩ : Shape).Idx → EReal) (bb : Fin N → EReal)
    (j : (⟨2, ![M', N]⟩ : Shape).Idx) (i : (⟨2, ![M, N]⟩ : Shape).Idx)
    (hq : (j 1).val = (i 1).val) (hx : ∀ k : Fin K, agg' (ix2 (n0 := M') (j 0) k) = agg (ix2 (n0 := M) (i 0) k)) :
    affine agg' W bb j = affine agg W bb i := by
  show mm agg' W j + bb (j 1) = mm agg W i + bb (i 1)
  have e : (j 1 : Fin N) = (i 1 : Fin N) := Fin.ext hq
  rw [mm_eq_of_row agg' W agg W j i rfl hq hx, e]

section Net

variable {Nn Ne K C : ℕ}
variable (gs gd : ((⟨2, ![Nn, C]⟩ : Shape).Idx → EReal) → ((⟨2, ![Ne, C]⟩ : Shape).Idx → EReal))
variable (sc : ((⟨2, ![Ne, C]⟩ : Shape).Idx → EReal) → ((⟨2, ![Nn, C]⟩ : Shape).Idx → EReal))
variable (ea : (⟨2, ![Ne, K]⟩ : Shape).Idx → EReal)

/-- The messages of one layer summed into their target nodes. -/
def aggregate (w : Fin K → EReal) (b : EReal) (x : (⟨2, ![Nn, C]⟩ : Shape).Idx → EReal) : (⟨2, ![Nn, C]⟩ : Shape).Idx → EReal :=
  sc (message ea w b (gs x) (gd x))

/-- A layer with the cut at zero and its input added back. -/
def layerRes (w : Fin K → EReal) (b : EReal) (W : (⟨2, ![C, C]⟩ : Shape).Idx → EReal) (bb : Fin C → EReal)
    (x : (⟨2, ![Nn, C]⟩ : Shape).Idx → EReal) : (⟨2, ![Nn, C]⟩ : Shape).Idx → EReal :=
  nodeRes (aggregate gs gd sc ea w b x) W bb x

/-- The last layer: the dense layer alone. -/
def layerPlain (w : Fin K → EReal) (b : EReal) (W : (⟨2, ![C, C]⟩ : Shape).Idx → EReal) (bb : Fin C → EReal)
    (x : (⟨2, ![Nn, C]⟩ : Shape).Idx → EReal) : (⟨2, ![Nn, C]⟩ : Shape).Idx → EReal :=
  affine (aggregate gs gd sc ea w b x) W bb

/-- Three layers. -/
def net (w0 : Fin K → EReal) (b0 : EReal) (W0 : (⟨2, ![C, C]⟩ : Shape).Idx → EReal) (bb0 : Fin C → EReal)
    (w1 : Fin K → EReal) (b1 : EReal) (W1 : (⟨2, ![C, C]⟩ : Shape).Idx → EReal) (bb1 : Fin C → EReal)
    (w2 : Fin K → EReal) (b2 : EReal) (W2 : (⟨2, ![C, C]⟩ : Shape).Idx → EReal) (bb2 : Fin C → EReal)
    (x : (⟨2, ![Nn, C]⟩ : Shape).Idx → EReal) : (⟨2, ![Nn, C]⟩ : Shape).Idx → EReal :=
  layerPlain gs gd sc ea w2 b2 W2 bb2 (layerRes gs gd sc ea w1 b1 W1 bb1 (layerRes gs gd sc ea w0 b0 W0 bb0 x))

end Net

end Cert.EdgeNet

end
-- ==== Proof.EdgeBody.lean ====
/-
  The edge kernel's arithmetic, read at an entry. One block holds 8000 edges: their attribute rows, the feature rows of
  their source and target nodes, the weight row and the offset. The body forms each edge's weighted attribute sum plus
  the offset, its softplus, and multiplies the difference of the two feature rows by it: the block of messages.
-/
import proofs.«142588_j65300682769036_1_alg».proof.Proof.Gen.KernelIdeal.Skeleton
import proofs.«142588_j65300682769036_1_alg».proof.Proof.NetSpec

noncomputable section

namespace Cert.KernelIdeal.EdgeBody

open Cert.KernelIdeal Idealize.ShloMosaic Idealize.ShloMosaic.TcCoe Idealize.ShloMosaic.ValueIdx Cert.LayoutLib Cert.EdgeNet

/-- The one-by-one offset broadcast down a column reads the offset everywhere. -/
theorem broadcastTo_11_col_apply {a : ℕ} (v : (⟨2, ![1, 1]⟩ : Shape).Idx → EReal) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- A lane sum over the eight attributes of a block's rows, read at edge `p`: the sum of that row's entries. -/
theorem lane_sum (src : FVec Ideal S8000x8 .f32) (h : S8000x8.Reduces [(1 : Fin 2)] S8000) (hφ : FKind.Formats FTy.f32)
    (hacc : (0x00000000#32 : BitVec 32) = 0x00000000#32) (p : Fin 8000) :
    multiReduction (F := Ideal) .add [1] S8000 src 0x00000000#32 h hφ hacc (ix1 p) = ∑ k : Fin 8, src (ix2 p k) :=
  (Ideal.multiReduction_add_single src 0x00000000#32 h hφ hacc (ix1 p)).trans
    (Finset.sum_congr rfl fun k _ => congrArg src (lift_row h p k))

/-- A number is never different from itself: the guard both programs put before the softplus (meant for a value
    that is not a number) never fires on the extended reals, and what is left is the softplus. -/
theorem softplus_guard (p : CmpFPredicate) (hp : p = .one ∨ p = .une) (s a : EReal) :
    Scalar.select (Ideal.cmp p (s - 0) (s - 0)) a (max s 0 + Ideal.log1p (Ideal.exp (0 - max (s - 0) (-(s - 0))))) = softplus s := by
  have h : Ideal.cmp p (s - 0) (s - 0) = 0#1 := by
    rcases hp with rfl | rfl <;> simp [Ideal.cmp]
  rw [h]
  show (if (0#1 : BitVec 1) = 1 then _ else _) = _
  rw [if_neg (by decide), zero_sub]
  rfl

/-- The softplus column of a block, read at edge `p`, from the pre-activation column's entry. -/
theorem weight_of_pre (S : FVec Ideal S8000x1 .f32) (s : EReal) (p : Fin 8000) (hs : S (ix2 p (0 : Fin 1)) = s) :
    Scalar.select
      (cmpf CmpFPredicate.one (subf S (broadcast S8000x1 (FloatOps.ofBits FTy.f32 0#32))) (subf S (broadcast S8000x1 (FloatOps.ofBits FTy.f32 0#32))) (ix2 p 0))
      (addf S (broadcast S8000x1 (FloatOps.ofBits FTy.f32 0#32)) (ix2 p 0))
      (addf (maximumf S (broadcast S8000x1 (FloatOps.ofBits FTy.f32 0#32)))
        (log1p (exp (subf (broadcast S8000x1 (FloatOps.ofBits FTy.f32 0#32)) (absf (subf S (broadcast S8000x1 (FloatOps.ofBits FTy.f32 0#32))))))) (ix2 p 0))
      = softplus s := by
  show Scalar.select (Ideal.cmp .one (S (ix2 p 0) - Ideal.ofBits .f32 0#32) (S (ix2 p 0) - Ideal.ofBits .f32 0#32)) (S (ix2 p 0) + Ideal.ofBits .f32 0#32)
      (max (S (ix2 p 0)) (Ideal.ofBits .f32 0#32) + Ideal.log1p (Ideal.exp (Ideal.ofBits .f32 0#32 -
        max (S (ix2 p 0) - Ideal.ofBits .f32 0#32) (-(S (ix2 p 0) - Ideal.ofBits .f32 0#32))))) = softplus s
  rw [Ideal.ofBits_zero_f32, hs]
  exact softplus_guard .one (.inl rfl) s _

/-- THE BLOCK OF MESSAGES: the body's stored value is the message function of the block's rows. -/
theorem pay_eq (v0 : Vec Ideal S8000x8 .f32) (v1 : Vec Ideal S1x8 .f32) (v3 : Vec Ideal S1x1 .f32) (v25 v27 : Vec Ideal S8000x128 .f32) :
    Gen.k0_pay1 (F := Ideal) v0 v1 v3 v25 v27 = message v0 (fun k => v1 (ix2 (0 : Fin 1) k)) (v3 (ix2 (0 : Fin 1) (0 : Fin 1))) v25 v27 := by
  funext j
  obtain ⟨p, q, rfl⟩ : ∃ (p : Fin 8000) (q : Fin 128), j = ix2 p q := ⟨j 0, j 1, eq_ix2 j⟩
  unfold Gen.k0_pay1
  dsimp only
  rw [mulf_apply, broadcastTo_col_apply, select_apply, subf_apply]
  simp only [shapeCast_self]
  show _ = softplus ((∑ k : Fin 8, v0 (ix2 p k) * v1 (ix2 (0 : Fin 1) k)) + v3 (ix2 (0 : Fin 1) (0 : Fin 1))) * (v25 (ix2 p q) - v27 (ix2 p q))
  refine congrArg (· * (v25 (ix2 p q) - v27 (ix2 p q))) (weight_of_pre _ _ p ?_)
  rw [addf_apply, shapeCast_col_apply, broadcastTo_11_col_apply]
  refine congrArg (· + v3 (ix2 (0 : Fin 1) (0 : Fin 1))) ((lane_sum _ _ _ _ p).trans (Finset.sum_congr rfl fun k _ => ?_))
  rw [mulf_apply, broadcastTo_1b_ab_apply]

/-- The three edge kernels have the same body. -/
theorem pay2_eq (v0 : Vec Ideal S8000x8 .f32) (v1 : Vec Ideal S1x8 .f32) (v3 : Vec Ideal S1x1 .f32) (v25 v27 : Vec Ideal S8000x128 .f32) :
    Gen.k2_pay1 (F := Ideal) v0 v1 v3 v25 v27 = message v0 (fun k => v1 (ix2 (0 : Fin 1) k)) (v3 (ix2 (0 : Fin 1) (0 : Fin 1))) v25 v27 :=
  pay_eq v0 v1 v3 v25 v27
theorem pay4_eq (v0 : Vec Ideal S8000x8 .f32) (v1 : Vec Ideal S1x8 .f32) (v3 : Vec Ideal S1x1 .f32) (v25 v27 : Vec Ideal S8000x128 .f32) :
    Gen.k4_pay1 (F := Ideal) v0 v1 v3 v25 v27 = message v0 (fun k => v1 (ix2 (0 : Fin 1) k)) (v3 (ix2 (0 : Fin 1) (0 : Fin 1))) v25 v27 :=
  pay_eq v0 v1 v3 v25 v27

end Cert.KernelIdeal.EdgeBody

end
-- ==== Proof.Launch0.lean ====
/-
  Launch 0: the edge kernel over a grid of one hundred blocks of 8000 edges. Block `t` of the attribute array and
  of the two gathered feature arrays is rows 8000·t … 8000·t + 7999; the weight row and the offset are the same block at
  every point. What point `t` writes back is block `t` of ONE function of the whole arrays, the messages; the blocks
  cover the array, so after the launch the array holds the messages.
-/
import proofs.«142588_j65300682769036_1_alg».proof.Proof.Gen.KernelIdeal.Frame
import proofs.«142588_j65300682769036_1_alg».proof.Proof.EdgeBody

set_option maxRecDepth 16384

noncomputable section

namespace Cert.KernelIdeal.Launch0

open Cert.KernelIdeal Cert.KernelIdeal.Gen Idealize.ShloMosaic Idealize.ShloMosaic.TcCoe Idealize.ShloMosaic.ValueIdx
open Idealize.SL.Sem Idealize.ShloMosaic.Pipeline Cert.EdgeNet

variable (V : (c : Dev nD) → (b : Ref sig .tc) → Buf (Elt Ideal) ((c : Thread nD τ).loc b))

theorem zero_origin : (![0, 0] : Fin 2 → Nat) = fun _ => 0 := funext fun a => by fin_cases a <;> rfl

/-- The messages of this launch as one function of the arrays the launch finds. -/
def msgs (c : Dev nD) : S800000x128.Idx → EReal :=
  message (V c main_arg2) (fun k => V c main_v20 (ix2 (0 : Fin 1) k)) (V c main_v23 (ix2 (0 : Fin 1) (0 : Fin 1))) (V c main_v10) (V c main_v17)

/-- The index maps over the grid: the three big windows and the output move together, one block of rows per point;
    the weight row and the offset stay put. -/
theorem index_facts : ∀ t : Fin cfg0.N, win0_0.index t (0 : Fin 2) = win0_5.index t (0 : Fin 2)
    ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 99 :=
  (by decide +kernel : ∀ t : Fin grid0.N, _)

/-- Every block of rows is some point's. -/
theorem index_onto : ∀ q : Fin 100, ∃ t : Fin cfg0.N, win0_5.index t = ![q.val, 0] :=
  (by decide +kernel : ∀ q : Fin 100, ∃ t : Fin grid0.N, win0_5.index t = ![q.val, 0])

/-- WHAT POINT `t` WRITES BACK is block `t` of the messages. -/
theorem flushed_eq (c : Dev nD) (t : Fin cfg0.N) :
    (dat0 V c).flushed 5 t = ((cfg0.win 5).blk t).view.read (Elt Ideal) (msgs V c) := by
  show (cfg0.win 5).cut (grid0.coords t) ((dat0 V c).after 5 t) = _
  rw [after0_5]
  unfold out0_5
  rw [View.canon_unit_zero zero_origin]
  simp only [View.ld_unit_zero (S := S8000x8) zero_origin, View.ld_unit_zero (S := S8000x128) zero_origin,
    View.ld_unit_zero (S := S1x8) zero_origin, View.ld_unit_zero (S := S1x1) zero_origin]
  rw [EdgeBody.pay_eq]
  obtain ⟨e0, e1, e2, e3, e4, e5, e6, e7, e8, e9, e10, e11⟩ := index_facts t
  funext j
  have hw : (fun k : Fin 8 => iblk0 V c 3 t (ix2 (0 : Fin 1) k)) = fun k => V c main_v20 (ix2 (0 : Fin 1) k) :=
    funext fun k => congrArg (V c main_v20) (funext fun a => Fin.ext (by
      match a with
      | ⟨0, _⟩ => show win0_3.index t (0 : Fin 2) * 1 + 1 * 0 = 0; omega
      | ⟨1, _⟩ => show win0_3.index t (1 : Fin 2) * 8 + 1 * k.val = k.val; omega))
  have hb : iblk0 V c 4 t (ix2 (0 : Fin 1) (0 : Fin 1)) = V c main_v23 (ix2 (0 : Fin 1) (0 : Fin 1)) :=
    congrArg (V c main_v23) (funext fun a => Fin.ext (by
      match a with
      | ⟨0, _⟩ => show win0_4.index t (0 : Fin 2) * 1 + 1 * 0 = 0; omega
      | ⟨1, _⟩ => show win0_4.index t (1 : Fin 2) * 1 + 1 * 0 = 0; omega))
  show message (iblk0 V c 0 t) (fun k => iblk0 V c 3 t (ix2 (0 : Fin 1) k)) (iblk0 V c 4 t (ix2 (0 : Fin 1) (0 : Fin 1))) (iblk0 V c 1 t) (iblk0 V c 2 t) j
    = msgs V c (((cfg0.win 5).blk t).view.emb j)
  rw [hw, hb]
  refine message_eq_of_row _ _ _ _ _ _ _ _ j _ (fun k => ?_) ?_ ?_
  · refine congrArg (V c main_arg2) (funext fun a => Fin.ext ?_)
    match a with
    | ⟨0, _⟩ => show win0_0.index t (0 : Fin 2) * 8000 + 1 * (j 0).val = win0_5.index t (0 : Fin 2) * 8000 + 1 * (j 0).val; omega
    | ⟨1, _⟩ => show win0_0.index t (1 : Fin 2) * 8 + 1 * k.val = k.val; omega
  · refine congrArg (V c main_v10) (funext fun a => Fin.ext ?_)
    match a with
    | ⟨0, _⟩ => show win0_1.index t (0 : Fin 2) * 8000 + 1 * (j 0).val = win0_5.index t (0 : Fin 2) * 8000 + 1 * (j 0).val; omega
    | ⟨1, _⟩ => show win0_1.index t (1 : Fin 2) * 128 + 1 * (j 1).val = win0_5.index t (1 : Fin 2) * 128 + 1 * (j 1).val; omega
  · refine congrArg (V c main_v17) (funext fun a => Fin.ext ?_)
    match a with
    | ⟨0, _⟩ => show win0_2.index t (0 : Fin 2) * 8000 + 1 * (j 0).val = win0_5.index t (0 : Fin 2) * 8000 + 1 * (j 0).val; omega
    | ⟨1, _⟩ => show win0_2.index t (1 : Fin 2) * 128 + 1 * (j 1).val = win0_5.index t (1 : Fin 2) * 128 + 1 * (j 1).val; omega

/-- An index of the array is in point `t`'s block iff each coordinate is in the block's range on its axis. -/
theorem mem_block (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v24).slice (win0_5.rect t)).set ↔ _
  rw [View.set_slice_whole, Rect.mem_set_unit]
  exact Iff.rfl

/-- The blocks cover the array: row `r` lies in the block of point `r / 8000`. -/
theorem cover (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  obtain ⟨t, ht⟩ := index_onto ⟨(i 0).val / 8000, by omega⟩
  have q0 : win0_5.index t (0 : Fin 2) = (i 0).val / 8000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- THE ARRAY after the launch: the messages. -/
theorem final (c : Dev nD) : (dat0 V c).arrAt 5 cfg0.N = msgs V c :=
  (dat0 V c).arrAt_eq_of_cover 5 (msgs V c) (fun t _ => flushed_eq V c t) (cover)

end Cert.KernelIdeal.Launch0

end
-- ==== Proof.NodeBody.lean ====
/-
  The node kernels' arithmetic. One block holds 10000 nodes' aggregated rows, the weight matrix, the bias and, in the
  first two layers, the layer's input rows. The body multiplies the rows by the matrix (a change of float format on the
  way is the identity on the extended reals), adds the bias along every row, and in the first two layers cuts at zero
  and adds the input rows back.
-/
import proofs.«142588_j65300682769036_1_alg».proof.Proof.Gen.KernelIdeal.Skeleton
import proofs.«142588_j65300682769036_1_alg».proof.Proof.NetSpec

noncomputable section

namespace Cert.KernelIdeal.NodeBody

open Cert.KernelIdeal Idealize.ShloMosaic Idealize.ShloMosaic.TcCoe Idealize.ShloMosaic.ValueIdx Cert.LayoutLib Cert.DenseLib Cert.RowBlocks Cert.EdgeNet

/-- The maximum against a splat of the zero word is the cut at zero. -/
theorem maximumf_zero_word {s : Shape} (X : FVec Ideal s .f32) :
    maximumf X (broadcast s (FloatOps.ofBits (F := Ideal) FTy.f32 0#32)) = relu X := maximumf_splat_zero X

/-- The bias vector, recast as one row and broadcast down the rows, lies along every row. -/
theorem bias_rows (v7 : FVec Ideal S128 .f32) (h1 : S128.ShapeCasts S1x128) (h2 : S1x128.Broadcasts S10000x128) :
    broadcastTo S10000x128 (shapeCast S1x128 v7 h1) h2 = rows (M := 10000) fun c => v7 (ix1 c) := by
  rw [broadcastTo_eq_rows]
  exact congrArg (rows (M := 10000)) (funext fun c => shapeCast_vecRow_apply v7 h1 0 c)

/-- A layer with the cut and the input added back: the stored block is `relu (rows · W + b) + input rows`. -/
theorem pay1_eq (v0 : Vec Ideal S10000x128 .f32) (v3 : Vec Ideal S128x128 .f32) (v7 : Vec Ideal S128 .f32) (v14 : Vec Ideal S10000x128 .f32) :
    Gen.k1_pay1 (F := Ideal) v0 v3 v7 v14 = nodeRes v0 v3 (fun c => v7 (ix1 c)) v14 := by
  unfold Gen.k1_pay1
  dsimp only
  simp only [shapeCast_self]
  rw [truncf_eq, truncf_eq, matmul_eq_mm dot_S10000x128_S128x128_S10000x128_1_0_0_1_n_n rfl, bias_rows, maximumf_zero_word]
  rfl

/-- The second such layer: its input rows pass through a cast to their own shape first. -/
theorem pay3_eq (v0 : Vec Ideal S10000x128 .f32) (v3 : Vec Ideal S128x128 .f32) (v7 : Vec Ideal S128 .f32) (v14 : Vec Ideal S10000x128 .f32) :
    Gen.k3_pay1 (F := Ideal) v0 v3 v7 v14 = nodeRes v0 v3 (fun c => v7 (ix1 c)) v14 := by
  unfold Gen.k3_pay1
  dsimp only
  simp only [shapeCast_self]
  rw [truncf_eq, truncf_eq, matmul_eq_mm dot_S10000x128_S128x128_S10000x128_1_0_0_1_n_n rfl, bias_rows, maximumf_zero_word]
  rfl

/-- The last layer: the product plus the bias. -/
theorem pay5_eq (v0 : Vec Ideal S10000x128 .f32) (v3 : Vec Ideal S128x128 .f32) (v7 : Vec Ideal S128 .f32) :
    Gen.k5_pay1 (F := Ideal) v0 v3 v7 = affine v0 v3 (fun c => v7 (ix1 c)) := by
  unfold Gen.k5_pay1
  dsimp only
  simp only [shapeCast_self]
  rw [truncf_eq, truncf_eq, matmul_eq_mm dot_S10000x128_S128x128_S10000x128_1_0_0_1_n_n rfl, bias_rows]
  rfl

end Cert.KernelIdeal.NodeBody

end
-- ==== Proof.Launch1.lean ====
/-
  Launch 1: the node kernel over a grid of five blocks of 10000 nodes. Block `t` of the aggregated array and of the layer's input
  is rows 10000·t … 10000·t + 9999; the weight matrix and the bias are whole at every point. A row of the result depends
  on that row of the aggregated array and of the input only, so what point `t` writes back is block `t` of ONE function of the
  whole arrays, and the blocks cover the array.
-/
import proofs.«142588_j65300682769036_1_alg».proof.Proof.Gen.KernelIdeal.Frame
import proofs.«142588_j65300682769036_1_alg».proof.Proof.NodeBody

set_option maxRecDepth 16384

noncomputable section

namespace Cert.KernelIdeal.Launch1

open Cert.KernelIdeal Cert.KernelIdeal.Gen Idealize.ShloMosaic Idealize.ShloMosaic.TcCoe Idealize.ShloMosaic.ValueIdx
open Idealize.SL.Sem Idealize.ShloMosaic.Pipeline Cert.RowBlocks Cert.EdgeNet

variable (V : (c : Dev nD) → (b : Ref sig .tc) → Buf (Elt Ideal) ((c : Thread nD τ).loc b))

theorem zero_origin : (![0, 0] : Fin 2 → Nat) = fun _ => 0 := funext fun a => by fin_cases a <;> rfl
theorem zero_origin1 : (![0] : Fin 1 → Nat) = fun _ => 0 := funext fun a => by fin_cases a; rfl

/-- The layer's result as one function of the arrays the launch finds. -/
def result (c : Dev nD) : S50000x128.Idx → EReal :=
  nodeRes (V c main_v27) (V c main_v29) (fun q => V c main_v31 (ix1 q)) (V c main_arg0)

/-- The index maps over the grid: the aggregated array, the input and the output move together, one block of rows per
    point; the weight matrix and the bias stay put. -/
theorem index_facts : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = win1_4.index t (0 : Fin 2)
    ∧ win1_3.index t (1 : Fin 2) = 0
    ∧ win1_4.index t (1 : Fin 2) = 0
    ∧ win1_4.index t (0 : Fin 2) ≤ 4 :=
  (by decide +kernel : ∀ t : Fin grid1.N, _)

/-- Every block of rows is some point's. -/
theorem index_onto : ∀ q : Fin 5, ∃ t : Fin cfg1.N, win1_4.index t = ![q.val, 0] :=
  (by decide +kernel : ∀ q : Fin 5, ∃ t : Fin grid1.N, win1_4.index t = ![q.val, 0])

/-- WHAT POINT `t` WRITES BACK is block `t` of the layer's result. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero zero_origin]
  simp only [View.ld_unit_zero (S := S10000x128) zero_origin, View.ld_unit_zero (S := S128x128) zero_origin,
    View.ld_unit_zero (S := S128) zero_origin1]
  rw [NodeBody.pay1_eq]
  obtain ⟨e0, e1, e2, e3, e4, e5, e6, e7, e8⟩ := index_facts t
  funext j
  have hW : iblk1 V c 1 t = V c main_v29 :=
    funext fun y => congrArg (V c main_v29) (funext fun a => Fin.ext (by
      match a with
      | ⟨0, _⟩ => show win1_1.index t (0 : Fin 2) * 128 + 1 * (y 0).val = (y 0).val; omega
      | ⟨1, _⟩ => show win1_1.index t (1 : Fin 2) * 128 + 1 * (y 1).val = (y 1).val; omega))
  have hb : (fun q : Fin 128 => iblk1 V c 2 t (ix1 q)) = fun q => V c main_v31 (ix1 q) :=
    funext fun q => congrArg (V c main_v31) (funext fun a => Fin.ext (by
      match a with
      | ⟨0, _⟩ => show win1_2.index t (0 : Fin 1) * 128 + 1 * q.val = q.val; omega))
  show nodeRes (iblk1 V c 0 t) (iblk1 V c 1 t) (fun q => iblk1 V c 2 t (ix1 q)) (iblk1 V c 3 t) j
    = result V c (((cfg1.win 4).blk t).view.emb j)
  rw [hW, hb]
  refine nodeRes_eq_of_row _ _ _ _ _ _ j _ ?_ (fun k => ?_) ?_
  · show (j 1).val = win1_4.index t (1 : Fin 2) * 128 + 1 * (j 1).val; omega
  · refine congrArg (V c main_v27) (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 128 + 1 * k.val = k.val; omega
  · refine congrArg (V c main_arg0) (funext fun a => Fin.ext ?_)
    match a with
    | ⟨0, _⟩ => show win1_3.index t (0 : Fin 2) * 10000 + 1 * (j 0).val = win1_4.index t (0 : Fin 2) * 10000 + 1 * (j 0).val; omega
    | ⟨1, _⟩ => show win1_3.index t (1 : Fin 2) * 128 + 1 * (j 1).val = win1_4.index t (1 : Fin 2) * 128 + 1 * (j 1).val; omega

/-- An index of the array is in point `t`'s block iff each coordinate is in the block's range on its axis. -/
theorem mem_block (t : Fin cfg1.N) (i : S50000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v32).slice (win1_4.rect t)).set ↔ _
  rw [View.set_slice_whole, Rect.mem_set_unit]
  exact Iff.rfl

/-- The blocks cover the array: row `r` lies in the block of point `r / 10000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := index_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- THE ARRAY after the launch: the layer's result. -/
theorem final (c : Dev nD) : (dat1 V c).arrAt 4 cfg1.N = result V c :=
  (dat1 V c).arrAt_eq_of_cover 4 (result V c) (fun t _ => flushed_eq V c t) (cover)

end Cert.KernelIdeal.Launch1

end
-- ==== Proof.Launch2.lean ====
/-
  Launch 2: the edge kernel over a grid of one hundred blocks of 8000 edges. Block `t` of the attribute array and
  of the two gathered feature arrays is rows 8000·t … 8000·t + 7999; the weight row and the offset are the same block at
  every point. What point `t` writes back is block `t` of ONE function of the whole arrays, the messages; the blocks
  cover the array, so after the launch the array holds the messages.
-/
import proofs.«142588_j65300682769036_1_alg».proof.Proof.Gen.KernelIdeal.Frame
import proofs.«142588_j65300682769036_1_alg».proof.Proof.EdgeBody

set_option maxRecDepth 16384

noncomputable section

namespace Cert.KernelIdeal.Launch2

open Cert.KernelIdeal Cert.KernelIdeal.Gen Idealize.ShloMosaic Idealize.ShloMosaic.TcCoe Idealize.ShloMosaic.ValueIdx
open Idealize.SL.Sem Idealize.ShloMosaic.Pipeline Cert.EdgeNet

variable (V : (c : Dev nD) → (b : Ref sig .tc) → Buf (Elt Ideal) ((c : Thread nD τ).loc b))

theorem zero_origin : (![0, 0] : Fin 2 → Nat) = fun _ => 0 := funext fun a => by fin_cases a <;> rfl

/-- The messages of this launch as one function of the arrays the launch finds. -/
def msgs (c : Dev nD) : S800000x128.Idx → EReal :=
  message (V c main_arg2) (fun k => V c main_v49 (ix2 (0 : Fin 1) k)) (V c main_v52 (ix2 (0 : Fin 1) (0 : Fin 1))) (V c main_v39) (V c main_v46)

/-- The index maps over the grid: the three big windows and the output move together, one block of rows per point;
    the weight row and the offset stay put. -/
theorem index_facts : ∀ t : Fin cfg2.N, win2_0.index t (0 : Fin 2) = win2_5.index t (0 : Fin 2)
    ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 99 :=
  (by decide +kernel : ∀ t : Fin grid2.N, _)

/-- Every block of rows is some point's. -/
theorem index_onto : ∀ q : Fin 100, ∃ t : Fin cfg2.N, win2_5.index t = ![q.val, 0] :=
  (by decide +kernel : ∀ q : Fin 100, ∃ t : Fin grid2.N, win2_5.index t = ![q.val, 0])

/-- WHAT POINT `t` WRITES BACK is block `t` of the messages. -/
theorem flushed_eq (c : Dev nD) (t : Fin cfg2.N) :
    (dat2 V c).flushed 5 t = ((cfg2.win 5).blk t).view.read (Elt Ideal) (msgs V c) := by
  show (cfg2.win 5).cut (grid2.coords t) ((dat2 V c).after 5 t) = _
  rw [after2_5]
  unfold out2_5
  rw [View.canon_unit_zero zero_origin]
  simp only [View.ld_unit_zero (S := S8000x8) zero_origin, View.ld_unit_zero (S := S8000x128) zero_origin,
    View.ld_unit_zero (S := S1x8) zero_origin, View.ld_unit_zero (S := S1x1) zero_origin]
  rw [EdgeBody.pay2_eq]
  obtain ⟨e0, e1, e2, e3, e4, e5, e6, e7, e8, e9, e10, e11⟩ := index_facts t
  funext j
  have hw : (fun k : Fin 8 => iblk2 V c 3 t (ix2 (0 : Fin 1) k)) = fun k => V c main_v49 (ix2 (0 : Fin 1) k) :=
    funext fun k => congrArg (V c main_v49) (funext fun a => Fin.ext (by
      match a with
      | ⟨0, _⟩ => show win2_3.index t (0 : Fin 2) * 1 + 1 * 0 = 0; omega
      | ⟨1, _⟩ => show win2_3.index t (1 : Fin 2) * 8 + 1 * k.val = k.val; omega))
  have hb : iblk2 V c 4 t (ix2 (0 : Fin 1) (0 : Fin 1)) = V c main_v52 (ix2 (0 : Fin 1) (0 : Fin 1)) :=
    congrArg (V c main_v52) (funext fun a => Fin.ext (by
      match a with
      | ⟨0, _⟩ => show win2_4.index t (0 : Fin 2) * 1 + 1 * 0 = 0; omega
      | ⟨1, _⟩ => show win2_4.index t (1 : Fin 2) * 1 + 1 * 0 = 0; omega))
  show message (iblk2 V c 0 t) (fun k => iblk2 V c 3 t (ix2 (0 : Fin 1) k)) (iblk2 V c 4 t (ix2 (0 : Fin 1) (0 : Fin 1))) (iblk2 V c 1 t) (iblk2 V c 2 t) j
    = msgs V c (((cfg2.win 5).blk t).view.emb j)
  rw [hw, hb]
  refine message_eq_of_row _ _ _ _ _ _ _ _ j _ (fun k => ?_) ?_ ?_
  · refine congrArg (V c main_arg2) (funext fun a => Fin.ext ?_)
    match a with
    | ⟨0, _⟩ => show win2_0.index t (0 : Fin 2) * 8000 + 1 * (j 0).val = win2_5.index t (0 : Fin 2) * 8000 + 1 * (j 0).val; omega
    | ⟨1, _⟩ => show win2_0.index t (1 : Fin 2) * 8 + 1 * k.val = k.val; omega
  · refine congrArg (V c main_v39) (funext fun a => Fin.ext ?_)
    match a with
    | ⟨0, _⟩ => show win2_1.index t (0 : Fin 2) * 8000 + 1 * (j 0).val = win2_5.index t (0 : Fin 2) * 8000 + 1 * (j 0).val; omega
    | ⟨1, _⟩ => show win2_1.index t (1 : Fin 2) * 128 + 1 * (j 1).val = win2_5.index t (1 : Fin 2) * 128 + 1 * (j 1).val; omega
  · refine congrArg (V c main_v46) (funext fun a => Fin.ext ?_)
    match a with
    | ⟨0, _⟩ => show win2_2.index t (0 : Fin 2) * 8000 + 1 * (j 0).val = win2_5.index t (0 : Fin 2) * 8000 + 1 * (j 0).val; omega
    | ⟨1, _⟩ => show win2_2.index t (1 : Fin 2) * 128 + 1 * (j 1).val = win2_5.index t (1 : Fin 2) * 128 + 1 * (j 1).val; omega

/-- An index of the array is in point `t`'s block iff each coordinate is in the block's range on its axis. -/
theorem mem_block (t : Fin cfg2.N) (i : S800000x128.Idx) :
    i ∈ ((cfg2.win 5).blk t).view.set ↔ ∀ a : Fin 2, win2_5.index t a * S8000x128.size a ≤ (i a).val ∧ (i a).val < win2_5.index t a * S8000x128.size a + S8000x128.size a := by
  show i ∈ ((View.whole main_v53).slice (win2_5.rect t)).set ↔ _
  rw [View.set_slice_whole, Rect.mem_set_unit]
  exact Iff.rfl

/-- The blocks cover the array: row `r` lies in the block of point `r / 8000`. -/
theorem cover (i : S800000x128.Idx) : ∃ t : Fin cfg2.N, (cfg2.win 5).flush t = true ∧ i ∈ ((cfg2.win 5).blk t).view.set := by
  have hi0 : (i 0).val < 800000 := (i 0).isLt
  have hi1 : (i 1).val < 128 := (i 1).isLt
  obtain ⟨t, ht⟩ := index_onto ⟨(i 0).val / 8000, by omega⟩
  have q0 : win2_5.index t (0 : Fin 2) = (i 0).val / 8000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 128 ≤ (i 1).val ∧ (i 1).val < win2_5.index t (1 : Fin 2) * 128 + 128; omega

/-- THE ARRAY after the launch: the messages. -/
theorem final (c : Dev nD) : (dat2 V c).arrAt 5 cfg2.N = msgs V c :=
  (dat2 V c).arrAt_eq_of_cover 5 (msgs V c) (fun t _ => flushed_eq V c t) (cover)

end Cert.KernelIdeal.Launch2

end
-- ==== Proof.Launch3.lean ====
/-
  Launch 3: the node kernel over a grid of five blocks of 10000 nodes. Block `t` of the aggregated array and of the layer's input
  is rows 10000·t … 10000·t + 9999; the weight matrix and the bias are whole at every point. A row of the result depends
  on that row of the aggregated array and of the input only, so what point `t` writes back is block `t` of ONE function of the
  whole arrays, and the blocks cover the array.
-/
import proofs.«142588_j65300682769036_1_alg».proof.Proof.Gen.KernelIdeal.Frame
import proofs.«142588_j65300682769036_1_alg».proof.Proof.NodeBody

set_option maxRecDepth 16384

noncomputable section

namespace Cert.KernelIdeal.Launch3

open Cert.KernelIdeal Cert.KernelIdeal.Gen Idealize.ShloMosaic Idealize.ShloMosaic.TcCoe Idealize.ShloMosaic.ValueIdx
open Idealize.SL.Sem Idealize.ShloMosaic.Pipeline Cert.RowBlocks Cert.EdgeNet

variable (V : (c : Dev nD) → (b : Ref sig .tc) → Buf (Elt Ideal) ((c : Thread nD τ).loc b))

theorem zero_origin : (![0, 0] : Fin 2 → Nat) = fun _ => 0 := funext fun a => by fin_cases a <;> rfl
theorem zero_origin1 : (![0] : Fin 1 → Nat) = fun _ => 0 := funext fun a => by fin_cases a; rfl

/-- The layer's result as one function of the arrays the launch finds. -/
def result (c : Dev nD) : S50000x128.Idx → EReal :=
  nodeRes (V c main_v56) (V c main_v58) (fun q => V c main_v60 (ix1 q)) (V c main_v32)

/-- The index maps over the grid: the aggregated array, the input and the output move together, one block of rows per
    point; the weight matrix and the bias stay put. -/
theorem index_facts : ∀ t : Fin cfg3.N, win3_0.index t (0 : Fin 2) = win3_4.index t (0 : Fin 2)
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = win3_4.index t (0 : Fin 2)
    ∧ win3_3.index t (1 : Fin 2) = 0
    ∧ win3_4.index t (1 : Fin 2) = 0
    ∧ win3_4.index t (0 : Fin 2) ≤ 4 :=
  (by decide +kernel : ∀ t : Fin grid3.N, _)

/-- Every block of rows is some point's. -/
theorem index_onto : ∀ q : Fin 5, ∃ t : Fin cfg3.N, win3_4.index t = ![q.val, 0] :=
  (by decide +kernel : ∀ q : Fin 5, ∃ t : Fin grid3.N, win3_4.index t = ![q.val, 0])

/-- WHAT POINT `t` WRITES BACK is block `t` of the layer's result. -/
theorem flushed_eq (c : Dev nD) (t : Fin cfg3.N) :
    (dat3 V c).flushed 4 t = ((cfg3.win 4).blk t).view.read (Elt Ideal) (result V c) := by
  show (cfg3.win 4).cut (grid3.coords t) ((dat3 V c).after 4 t) = _
  rw [after3_4]
  unfold out3_4
  rw [View.canon_unit_zero zero_origin]
  simp only [View.ld_unit_zero (S := S10000x128) zero_origin, View.ld_unit_zero (S := S128x128) zero_origin,
    View.ld_unit_zero (S := S128) zero_origin1]
  rw [NodeBody.pay3_eq]
  obtain ⟨e0, e1, e2, e3, e4, e5, e6, e7, e8⟩ := index_facts t
  funext j
  have hW : iblk3 V c 1 t = V c main_v58 :=
    funext fun y => congrArg (V c main_v58) (funext fun a => Fin.ext (by
      match a with
      | ⟨0, _⟩ => show win3_1.index t (0 : Fin 2) * 128 + 1 * (y 0).val = (y 0).val; omega
      | ⟨1, _⟩ => show win3_1.index t (1 : Fin 2) * 128 + 1 * (y 1).val = (y 1).val; omega))
  have hb : (fun q : Fin 128 => iblk3 V c 2 t (ix1 q)) = fun q => V c main_v60 (ix1 q) :=
    funext fun q => congrArg (V c main_v60) (funext fun a => Fin.ext (by
      match a with
      | ⟨0, _⟩ => show win3_2.index t (0 : Fin 1) * 128 + 1 * q.val = q.val; omega))
  show nodeRes (iblk3 V c 0 t) (iblk3 V c 1 t) (fun q => iblk3 V c 2 t (ix1 q)) (iblk3 V c 3 t) j
    = result V c (((cfg3.win 4).blk t).view.emb j)
  rw [hW, hb]
  refine nodeRes_eq_of_row _ _ _ _ _ _ j _ ?_ (fun k => ?_) ?_
  · show (j 1).val = win3_4.index t (1 : Fin 2) * 128 + 1 * (j 1).val; omega
  · refine congrArg (V c main_v56) (funext fun a => Fin.ext ?_)
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 128 + 1 * k.val = k.val; omega
  · refine congrArg (V c main_v32) (funext fun a => Fin.ext ?_)
    match a with
    | ⟨0, _⟩ => show win3_3.index t (0 : Fin 2) * 10000 + 1 * (j 0).val = win3_4.index t (0 : Fin 2) * 10000 + 1 * (j 0).val; omega
    | ⟨1, _⟩ => show win3_3.index t (1 : Fin 2) * 128 + 1 * (j 1).val = win3_4.index t (1 : Fin 2) * 128 + 1 * (j 1).val; omega

/-- An index of the array is in point `t`'s block iff each coordinate is in the block's range on its axis. -/
theorem mem_block (t : Fin cfg3.N) (i : S50000x128.Idx) :
    i ∈ ((cfg3.win 4).blk t).view.set ↔ ∀ a : Fin 2, win3_4.index t a * S10000x128.size a ≤ (i a).val ∧ (i a).val < win3_4.index t a * S10000x128.size a + S10000x128.size a := by
  show i ∈ ((View.whole main_v61).slice (win3_4.rect t)).set ↔ _
  rw [View.set_slice_whole, Rect.mem_set_unit]
  exact Iff.rfl

/-- The blocks cover the array: row `r` lies in the block of point `r / 10000`. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := index_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 128 ≤ (i 1).val ∧ (i 1).val < win3_4.index t (1 : Fin 2) * 128 + 128; omega

/-- THE ARRAY after the launch: the layer's result. -/
theorem final (c : Dev nD) : (dat3 V c).arrAt 4 cfg3.N = result V c :=
  (dat3 V c).arrAt_eq_of_cover 4 (result V c) (fun t _ => flushed_eq V c t) (cover)

end Cert.KernelIdeal.Launch3

end
-- ==== Proof.Launch4.lean ====
/-
  Launch 4: the edge kernel over a grid of one hundred blocks of 8000 edges. Block `t` of the attribute array and
  of the two gathered feature arrays is rows 8000·t … 8000·t + 7999; the weight row and the offset are the same block at
  every point. What point `t` writes back is block `t` of ONE function of the whole arrays, the messages; the blocks
  cover the array, so after the launch the array holds the messages.
-/
import proofs.«142588_j65300682769036_1_alg».proof.Proof.Gen.KernelIdeal.Frame
import proofs.«142588_j65300682769036_1_alg».proof.Proof.EdgeBody

set_option maxRecDepth 16384

noncomputable section

namespace Cert.KernelIdeal.Launch4

open Cert.KernelIdeal Cert.KernelIdeal.Gen Idealize.ShloMosaic Idealize.ShloMosaic.TcCoe Idealize.ShloMosaic.ValueIdx
open Idealize.SL.Sem Idealize.ShloMosaic.Pipeline Cert.EdgeNet

variable (V : (c : Dev nD) → (b : Ref sig .tc) → Buf (Elt Ideal) ((c : Thread nD τ).loc b))

theorem zero_origin : (![0, 0] : Fin 2 → Nat) = fun _ => 0 := funext fun a => by fin_cases a <;> rfl

/-- The messages of this launch as one function of the arrays the launch finds. -/
def msgs (c : Dev nD) : S800000x128.Idx → EReal :=
  message (V c main_arg2) (fun k => V c main_v78 (ix2 (0 : Fin 1) k)) (V c main_v81 (ix2 (0 : Fin 1) (0 : Fin 1))) (V c main_v68) (V c main_v75)

/-- The index maps over the grid: the three big windows and the output move together, one block of rows per point;
    the weight row and the offset stay put. -/
theorem index_facts : ∀ t : Fin cfg4.N, win4_0.index t (0 : Fin 2) = win4_5.index t (0 : Fin 2)
    ∧ win4_0.index t (1 : Fin 2) = 0
    ∧ win4_1.index t (0 : Fin 2) = win4_5.index t (0 : Fin 2) ∧ win4_1.index t (1 : Fin 2) = 0
    ∧ win4_2.index t (0 : Fin 2) = win4_5.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 99 :=
  (by decide +kernel : ∀ t : Fin grid4.N, _)

/-- Every block of rows is some point's. -/
theorem index_onto : ∀ q : Fin 100, ∃ t : Fin cfg4.N, win4_5.index t = ![q.val, 0] :=
  (by decide +kernel : ∀ q : Fin 100, ∃ t : Fin grid4.N, win4_5.index t = ![q.val, 0])

/-- WHAT POINT `t` WRITES BACK is block `t` of the messages. -/
theorem flushed_eq (c : Dev nD) (t : Fin cfg4.N) :
    (dat4 V c).flushed 5 t = ((cfg4.win 5).blk t).view.read (Elt Ideal) (msgs V c) := by
  show (cfg4.win 5).cut (grid4.coords t) ((dat4 V c).after 5 t) = _
  rw [after4_5]
  unfold out4_5
  rw [View.canon_unit_zero zero_origin]
  simp only [View.ld_unit_zero (S := S8000x8) zero_origin, View.ld_unit_zero (S := S8000x128) zero_origin,
    View.ld_unit_zero (S := S1x8) zero_origin, View.ld_unit_zero (S := S1x1) zero_origin]
  rw [EdgeBody.pay4_eq]
  obtain ⟨e0, e1, e2, e3, e4, e5, e6, e7, e8, e9, e10, e11⟩ := index_facts t
  funext j
  have hw : (fun k : Fin 8 => iblk4 V c 3 t (ix2 (0 : Fin 1) k)) = fun k => V c main_v78 (ix2 (0 : Fin 1) k) :=
    funext fun k => congrArg (V c main_v78) (funext fun a => Fin.ext (by
      match a with
      | ⟨0, _⟩ => show win4_3.index t (0 : Fin 2) * 1 + 1 * 0 = 0; omega
      | ⟨1, _⟩ => show win4_3.index t (1 : Fin 2) * 8 + 1 * k.val = k.val; omega))
  have hb : iblk4 V c 4 t (ix2 (0 : Fin 1) (0 : Fin 1)) = V c main_v81 (ix2 (0 : Fin 1) (0 : Fin 1)) :=
    congrArg (V c main_v81) (funext fun a => Fin.ext (by
      match a with
      | ⟨0, _⟩ => show win4_4.index t (0 : Fin 2) * 1 + 1 * 0 = 0; omega
      | ⟨1, _⟩ => show win4_4.index t (1 : Fin 2) * 1 + 1 * 0 = 0; omega))
  show message (iblk4 V c 0 t) (fun k => iblk4 V c 3 t (ix2 (0 : Fin 1) k)) (iblk4 V c 4 t (ix2 (0 : Fin 1) (0 : Fin 1))) (iblk4 V c 1 t) (iblk4 V c 2 t) j
    = msgs V c (((cfg4.win 5).blk t).view.emb j)
  rw [hw, hb]
  refine message_eq_of_row _ _ _ _ _ _ _ _ j _ (fun k => ?_) ?_ ?_
  · refine congrArg (V c main_arg2) (funext fun a => Fin.ext ?_)
    match a with
    | ⟨0, _⟩ => show win4_0.index t (0 : Fin 2) * 8000 + 1 * (j 0).val = win4_5.index t (0 : Fin 2) * 8000 + 1 * (j 0).val; omega
    | ⟨1, _⟩ => show win4_0.index t (1 : Fin 2) * 8 + 1 * k.val = k.val; omega
  · refine congrArg (V c main_v68) (funext fun a => Fin.ext ?_)
    match a with
    | ⟨0, _⟩ => show win4_1.index t (0 : Fin 2) * 8000 + 1 * (j 0).val = win4_5.index t (0 : Fin 2) * 8000 + 1 * (j 0).val; omega
    | ⟨1, _⟩ => show win4_1.index t (1 : Fin 2) * 128 + 1 * (j 1).val = win4_5.index t (1 : Fin 2) * 128 + 1 * (j 1).val; omega
  · refine congrArg (V c main_v75) (funext fun a => Fin.ext ?_)
    match a with
    | ⟨0, _⟩ => show win4_2.index t (0 : Fin 2) * 8000 + 1 * (j 0).val = win4_5.index t (0 : Fin 2) * 8000 + 1 * (j 0).val; omega
    | ⟨1, _⟩ => show win4_2.index t (1 : Fin 2) * 128 + 1 * (j 1).val = win4_5.index t (1 : Fin 2) * 128 + 1 * (j 1).val; omega

/-- An index of the array is in point `t`'s block iff each coordinate is in the block's range on its axis. -/
theorem mem_block (t : Fin cfg4.N) (i : S800000x128.Idx) :
    i ∈ ((cfg4.win 5).blk t).view.set ↔ ∀ a : Fin 2, win4_5.index t a * S8000x128.size a ≤ (i a).val ∧ (i a).val < win4_5.index t a * S8000x128.size a + S8000x128.size a := by
  show i ∈ ((View.whole main_v82).slice (win4_5.rect t)).set ↔ _
  rw [View.set_slice_whole, Rect.mem_set_unit]
  exact Iff.rfl

/-- The blocks cover the array: row `r` lies in the block of point `r / 8000`. -/
theorem cover (i : S800000x128.Idx) : ∃ t : Fin cfg4.N, (cfg4.win 5).flush t = true ∧ i ∈ ((cfg4.win 5).blk t).view.set := by
  have hi0 : (i 0).val < 800000 := (i 0).isLt
  have hi1 : (i 1).val < 128 := (i 1).isLt
  obtain ⟨t, ht⟩ := index_onto ⟨(i 0).val / 8000, by omega⟩
  have q0 : win4_5.index t (0 : Fin 2) = (i 0).val / 8000 := congrFun ht 0
  have q1 : win4_5.index t (1 : Fin 2) = 0 := congrFun ht 1
  refine ⟨t, flush4_5 t, ?_⟩
  rw [mem_block]
  intro a
  match a with
  | ⟨0, _⟩ => show win4_5.index t (0 : Fin 2) * 8000 ≤ (i 0).val ∧ (i 0).val < win4_5.index t (0 : Fin 2) * 8000 + 8000; omega
  | ⟨1, _⟩ => show win4_5.index t (1 : Fin 2) * 128 ≤ (i 1).val ∧ (i 1).val < win4_5.index t (1 : Fin 2) * 128 + 128; omega

/-- THE ARRAY after the launch: the messages. -/
theorem final (c : Dev nD) : (dat4 V c).arrAt 5 cfg4.N = msgs V c :=
  (dat4 V c).arrAt_eq_of_cover 5 (msgs V c) (fun t _ => flushed_eq V c t) (cover)

end Cert.KernelIdeal.Launch4

end
-- ==== Proof.Launch5.lean ====
/-
  Launch 5: the node kernel over a grid of five blocks of 10000 nodes. Block `t` of the aggregated array
  is rows 10000·t … 10000·t + 9999; the weight matrix and the bias are whole at every point. A row of the result depends
  on that row of the aggregated array only, so what point `t` writes back is block `t` of ONE function of the
  whole arrays, and the blocks cover the array.
-/
import proofs.«142588_j65300682769036_1_alg».proof.Proof.Gen.KernelIdeal.Frame
import proofs.«142588_j65300682769036_1_alg».proof.Proof.NodeBody

set_option maxRecDepth 16384

noncomputable section

namespace Cert.KernelIdeal.Launch5

open Cert.KernelIdeal Cert.KernelIdeal.Gen Idealize.ShloMosaic Idealize.ShloMosaic.TcCoe Idealize.ShloMosaic.ValueIdx
open Idealize.SL.Sem Idealize.ShloMosaic.Pipeline Cert.RowBlocks Cert.EdgeNet

variable (V : (c : Dev nD) → (b : Ref sig .tc) → Buf (Elt Ideal) ((c : Thread nD τ).loc b))

theorem zero_origin : (![0, 0] : Fin 2 → Nat) = fun _ => 0 := funext fun a => by fin_cases a <;> rfl
theorem zero_origin1 : (![0] : Fin 1 → Nat) = fun _ => 0 := funext fun a => by fin_cases a; rfl

/-- The layer's result as one function of the arrays the launch finds. -/
def result (c : Dev nD) : S50000x128.Idx → EReal :=
  affine (V c main_v85) (V c main_v87) (fun q => V c main_v89 (ix1 q))

/-- The index maps over the grid: the aggregated array and the output move together, one block of rows per
    point; the weight matrix and the bias stay put. -/
theorem index_facts : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 1) = 0
    ∧ win5_3.index t (1 : Fin 2) = 0
    ∧ win5_3.index t (0 : Fin 2) ≤ 4 :=
  (by decide +kernel : ∀ t : Fin grid5.N, _)

/-- Every block of rows is some point's. -/
theorem index_onto : ∀ q : Fin 5, ∃ t : Fin cfg5.N, win5_3.index t = ![q.val, 0] :=
  (by decide +kernel : ∀ q : Fin 5, ∃ t : Fin grid5.N, win5_3.index t = ![q.val, 0])

/-- WHAT POINT `t` WRITES BACK is block `t` of the layer's result. -/
theorem flushed_eq (c : Dev nD) (t : Fin cfg5.N) :
    (dat5 V c).flushed 3 t = ((cfg5.win 3).blk t).view.read (Elt Ideal) (result V c) := by
  show (cfg5.win 3).cut (grid5.coords t) ((dat5 V c).after 3 t) = _
  rw [after5_3]
  unfold out5_3
  rw [View.canon_unit_zero zero_origin]
  simp only [View.ld_unit_zero (S := S10000x128) zero_origin, View.ld_unit_zero (S := S128x128) zero_origin,
    View.ld_unit_zero (S := S128) zero_origin1]
  rw [NodeBody.pay5_eq]
  obtain ⟨e0, e1, e2, e3, e4, e5, e6⟩ := index_facts t
  funext j
  have hW : iblk5 V c 1 t = V c main_v87 :=
    funext fun y => congrArg (V c main_v87) (funext fun a => Fin.ext (by
      match a with
      | ⟨0, _⟩ => show win5_1.index t (0 : Fin 2) * 128 + 1 * (y 0).val = (y 0).val; omega
      | ⟨1, _⟩ => show win5_1.index t (1 : Fin 2) * 128 + 1 * (y 1).val = (y 1).val; omega))
  have hb : (fun q : Fin 128 => iblk5 V c 2 t (ix1 q)) = fun q => V c main_v89 (ix1 q) :=
    funext fun q => congrArg (V c main_v89) (funext fun a => Fin.ext (by
      match a with
      | ⟨0, _⟩ => show win5_2.index t (0 : Fin 1) * 128 + 1 * q.val = q.val; omega))
  show affine (iblk5 V c 0 t) (iblk5 V c 1 t) (fun q => iblk5 V c 2 t (ix1 q)) j
    = result V c (((cfg5.win 3).blk t).view.emb j)
  rw [hW, hb]
  refine affine_eq_of_row _ _ _ _ j _ ?_ (fun k => ?_)
  · show (j 1).val = win5_3.index t (1 : Fin 2) * 128 + 1 * (j 1).val; omega
  · refine congrArg (V c main_v85) (funext fun a => Fin.ext ?_)
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 128 + 1 * k.val = k.val; omega

/-- An index of the array is in point `t`'s block iff each coordinate is in the block's range on its axis. -/
theorem mem_block (t : Fin cfg5.N) (i : S50000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v90).slice (win5_3.rect t)).set ↔ _
  rw [View.set_slice_whole, Rect.mem_set_unit]
  exact Iff.rfl

/-- The blocks cover the array: row `r` lies in the block of point `r / 10000`. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := index_onto ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [mem_block]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- THE ARRAY after the launch: the layer's result. -/
theorem final (c : Dev nD) : (dat5 V c).arrAt 3 cfg5.N = result V c :=
  (dat5 V c).arrAt_eq_of_cover 3 (result V c) (fun t _ => flushed_eq V c t) (cover)

end Cert.KernelIdeal.Launch5

end
-- ==== Proof.KernelNet.lean ====
/-
  The kernel's result as the network. Walking the memory fold from the launch: the first stretch cuts the two index
  vectors from the edge list, gathers the feature rows of every edge's two ends and lays out the first layer's edge
  parameters; the first launch leaves the messages; the next stretch sums them into their target nodes and cuts out the
  layer's matrix and bias; the second launch leaves the layer's result. The second and third layers repeat this from the
  previous layer's result. Read at the result buffer, the last stage of the fold is the three-layer network of the
  argument arrays.
-/
import proofs.«142588_j65300682769036_1_alg».proof.Proof.KernelRun
import proofs.«142588_j65300682769036_1_alg».proof.Proof.Persist
import proofs.«142588_j65300682769036_1_alg».proof.Proof.Launch0
import proofs.«142588_j65300682769036_1_alg».proof.Proof.Launch1
import proofs.«142588_j65300682769036_1_alg».proof.Proof.Launch2
import proofs.«142588_j65300682769036_1_alg».proof.Proof.Launch3
import proofs.«142588_j65300682769036_1_alg».proof.Proof.Launch4
import proofs.«142588_j65300682769036_1_alg».proof.Proof.Launch5

set_option maxRecDepth 16384

noncomputable section

namespace Cert.KernelIdeal.NetValue

open Cert.KernelIdeal Cert.KernelIdeal.Gen Idealize.ShloMosaic Idealize.ShloMosaic.TcCoe Idealize.ShloMosaic.ValueIdx Idealize.SL.Sem
open Idealize.ShloMosaic.StableHlo Cert.KernelIdeal.Stages Cert.KernelIdeal.Persist Cert.RowBlocks Cert.EdgeNet

variable (m : (ℓ : Loc nD τ sig) → Buf (Elt Ideal) ℓ) (ρ : Dev nD → PrngReg)

/-! ## The network's pieces, of the argument arrays on a device -/

/-- The feature rows at the source ends, at the target ends, and the sum into the target nodes. -/
def atSrc (c : Dev nD) : Nodes → Edges := rowsAt (wrapCol (srcVec (m ((c : Thread nD τ).loc main_arg1))))
def atDst (c : Dev nD) : Nodes → Edges := rowsAt (wrapCol (dstVec (m ((c : Thread nD τ).loc main_arg1))))
def intoDst (c : Dev nD) : Edges → Nodes := sumInto (plainCol (dstVec (m ((c : Thread nD τ).loc main_arg1))))

/-- Layer 0's edge weights, offset, weight matrix and bias. -/
def wts0 (c : Dev nD) : Fin 8 → EReal := fun k => (ewRow (m ((c : Thread nD τ).loc main_arg5)) ![0, 0, 0] slices_S3x8x1_S1x8x1_0_0_0) (ix2 (0 : Fin 1) k)
def off0 (c : Dev nD) : EReal := (ebCell (m ((c : Thread nD τ).loc main_arg6)) ![0, 0] slices_S3x1_S1x1_0_0) (ix2 (0 : Fin 1) (0 : Fin 1))
def mat0 (c : Dev nD) : (⟨S128x128, .f32⟩ : BufTy).Contents (Elt Ideal) := (wMat (m ((c : Thread nD τ).loc main_arg3)) ![0, 0, 0] slices_S3x128x128_S1x128x128_0_0_0)
def bias0 (c : Dev nD) : Fin 128 → EReal := fun q => (bVec (m ((c : Thread nD τ).loc main_arg4)) ![0, 0] slices_S3x128_S1x128_0_0) (ix1 q)

/-- Layer 1's edge weights, offset, weight matrix and bias. -/
def wts1 (c : Dev nD) : Fin 8 → EReal := fun k => (ewRow (m ((c : Thread nD τ).loc main_arg5)) ![1, 0, 0] slices_S3x8x1_S1x8x1_1_0_0) (ix2 (0 : Fin 1) k)
def off1 (c : Dev nD) : EReal := (ebCell (m ((c : Thread nD τ).loc main_arg6)) ![1, 0] slices_S3x1_S1x1_1_0) (ix2 (0 : Fin 1) (0 : Fin 1))
def mat1 (c : Dev nD) : (⟨S128x128, .f32⟩ : BufTy).Contents (Elt Ideal) := (wMat (m ((c : Thread nD τ).loc main_arg3)) ![1, 0, 0] slices_S3x128x128_S1x128x128_1_0_0)
def bias1 (c : Dev nD) : Fin 128 → EReal := fun q => (bVec (m ((c : Thread nD τ).loc main_arg4)) ![1, 0] slices_S3x128_S1x128_1_0) (ix1 q)

/-- Layer 2's edge weights, offset, weight matrix and bias. -/
def wts2 (c : Dev nD) : Fin 8 → EReal := fun k => (ewRow (m ((c : Thread nD τ).loc main_arg5)) ![2, 0, 0] slices_S3x8x1_S1x8x1_2_0_0) (ix2 (0 : Fin 1) k)
def off2 (c : Dev nD) : EReal := (ebCell (m ((c : Thread nD τ).loc main_arg6)) ![2, 0] slices_S3x1_S1x1_2_0) (ix2 (0 : Fin 1) (0 : Fin 1))
def mat2 (c : Dev nD) : (⟨S128x128, .f32⟩ : BufTy).Contents (Elt Ideal) := (wMat (m ((c : Thread nD τ).loc main_arg3)) ![2, 0, 0] slices_S3x128x128_S1x128x128_2_0_0)
def bias2 (c : Dev nD) : Fin 128 → EReal := fun q => (bVec (m ((c : Thread nD τ).loc main_arg4)) ![2, 0] slices_S3x128_S1x128_2_0) (ix1 q)

/-- The three layers' results. -/
def out0 (c : Dev nD) : Nodes := layerRes (atSrc m c) (atDst m c) (intoDst m c) (m ((c : Thread nD τ).loc main_arg2)) (wts0 m c) (off0 m c) (mat0 m c) (bias0 m c) (m ((c : Thread nD τ).loc main_arg0))
def out1 (c : Dev nD) : Nodes := layerRes (atSrc m c) (atDst m c) (intoDst m c) (m ((c : Thread nD τ).loc main_arg2)) (wts1 m c) (off1 m c) (mat1 m c) (bias1 m c) (out0 m c)
def out2 (c : Dev nD) : Nodes := layerPlain (atSrc m c) (atDst m c) (intoDst m c) (m ((c : Thread nD τ).loc main_arg2)) (wts2 m c) (off2 m c) (mat2 m c) (bias2 m c) (out1 m c)

/-- The messages of a layer from its input. -/
def msgOf (c : Dev nD) (w : Fin 8 → EReal) (b : EReal) (x : Nodes) : Edges := message (m ((c : Thread nD τ).loc main_arg2)) w b (atSrc m c x) (atDst m c x)

/-! ## Layer 0 -/

theorem xs0 (c : Dev nD) : (W1 m ρ c (Proc.devRef .tc main_v10)) = atSrc m c (m ((c : Thread nD τ).loc main_arg0)) := by
  show StableHlo.after hostOps0 (W0 m ρ c) (Proc.devRef .tc main_v10) = _
  after_results_simp
  rfl
theorem xd0 (c : Dev nD) : (W1 m ρ c (Proc.devRef .tc main_v17)) = atDst m c (m ((c : Thread nD τ).loc main_arg0)) := by
  show StableHlo.after hostOps0 (W0 m ρ c) (Proc.devRef .tc main_v17) = _
  after_results_simp
  rfl
theorem ew0 (c : Dev nD) : (W1 m ρ c (Proc.devRef .tc main_v20)) = (ewRow (m ((c : Thread nD τ).loc main_arg5)) ![0, 0, 0] slices_S3x8x1_S1x8x1_0_0_0) := by
  show StableHlo.after hostOps0 (W0 m ρ c) (Proc.devRef .tc main_v20) = _
  after_results_simp
  rfl
theorem eb0 (c : Dev nD) : (W1 m ρ c (Proc.devRef .tc main_v23)) = (ebCell (m ((c : Thread nD τ).loc main_arg6)) ![0, 0] slices_S3x1_S1x1_0_0) := by
  show StableHlo.after hostOps0 (W0 m ρ c) (Proc.devRef .tc main_v23) = _
  after_results_simp
  rfl
/-- After the edge launch its output holds the layer's messages. -/
theorem msgs0 (c : Dev nD) : (W2 m ρ c (Proc.devRef .tc main_v24)) = msgOf m c (wts0 m c) (off0 m c) (m ((c : Thread nD τ).loc main_arg0)) :=
  (W2_arr m ρ c 5).trans ((Launch0.final (V1 m ρ) c).trans (by
    show message (W1 m ρ c (Proc.devRef .tc main_arg2)) (fun k => (W1 m ρ c (Proc.devRef .tc main_v20)) (ix2 (0 : Fin 1) k)) ((W1 m ρ c (Proc.devRef .tc main_v23)) (ix2 (0 : Fin 1) (0 : Fin 1)))
      (W1 m ρ c (Proc.devRef .tc main_v10)) (W1 m ρ c (Proc.devRef .tc main_v17)) = _
    rw [W1_arg2, ew0, eb0, xs0, xd0]
    rfl))
theorem agg0 (c : Dev nD) : (W3 m ρ c (Proc.devRef .tc main_v27)) = intoDst m c (msgOf m c (wts0 m c) (off0 m c) (m ((c : Thread nD τ).loc main_arg0))) := by
  have h : (W3 m ρ c (Proc.devRef .tc main_v27)) = sumInto (plainCol (W2 m ρ c (Proc.devRef .tc main_v3))) (W2 m ρ c (Proc.devRef .tc main_v24)) := by
    show StableHlo.after hostOps1 (W2 m ρ c) (Proc.devRef .tc main_v27) = _
    after_results_simp
    rfl
  rw [h, W2_dst, msgs0]
  rfl
theorem wm0 (c : Dev nD) : (W3 m ρ c (Proc.devRef .tc main_v29)) = mat0 m c := by
  have h : (W3 m ρ c (Proc.devRef .tc main_v29)) = (wMat (W2 m ρ c (Proc.devRef .tc main_arg3)) ![0, 0, 0] slices_S3x128x128_S1x128x128_0_0_0) := by
    show StableHlo.after hostOps1 (W2 m ρ c) (Proc.devRef .tc main_v29) = _
    after_results_simp
    rfl
  rw [h, W2_arg3]
  rfl
theorem bv0 (c : Dev nD) : (W3 m ρ c (Proc.devRef .tc main_v31)) = (bVec (m ((c : Thread nD τ).loc main_arg4)) ![0, 0] slices_S3x128_S1x128_0_0) := by
  have h : (W3 m ρ c (Proc.devRef .tc main_v31)) = (bVec (W2 m ρ c (Proc.devRef .tc main_arg4)) ![0, 0] slices_S3x128_S1x128_0_0) := by
    show StableHlo.after hostOps1 (W2 m ρ c) (Proc.devRef .tc main_v31) = _
    after_results_simp
    rfl
  rw [h, W2_arg4]
/-- After the node launch its output holds the layer's result. -/
theorem res0 (c : Dev nD) : (W4 m ρ c (Proc.devRef .tc main_v32)) = out0 m c :=
  (W4_arr m ρ c 4).trans ((Launch1.final (V3 m ρ) c).trans (by
    show nodeRes (W3 m ρ c (Proc.devRef .tc main_v27)) (W3 m ρ c (Proc.devRef .tc main_v29)) (fun q => (W3 m ρ c (Proc.devRef .tc main_v31)) (ix1 q)) (W3 m ρ c (Proc.devRef .tc main_arg0)) = _
    rw [agg0, wm0, bv0, W3_arg0]
    rfl))

/-! ## Layer 1 -/

theorem xs1 (c : Dev nD) : (W5 m ρ c (Proc.devRef .tc main_v39)) = atSrc m c (out0 m c) := by
  have h : (W5 m ρ c (Proc.devRef .tc main_v39)) = rowsAt (wrapCol (W4 m ρ c (Proc.devRef .tc main_v1))) (W4 m ρ c (Proc.devRef .tc main_v32)) := by
    show StableHlo.after hostOps2 (W4 m ρ c) (Proc.devRef .tc main_v39) = _
    after_results_simp
    rfl
  rw [h, W4_src, res0]
  rfl
theorem xd1 (c : Dev nD) : (W5 m ρ c (Proc.devRef .tc main_v46)) = atDst m c (out0 m c) := by
  have h : (W5 m ρ c (Proc.devRef .tc main_v46)) = rowsAt (wrapCol (W4 m ρ c (Proc.devRef .tc main_v3))) (W4 m ρ c (Proc.devRef .tc main_v32)) := by
    show StableHlo.after hostOps2 (W4 m ρ c) (Proc.devRef .tc main_v46) = _
    after_results_simp
    rfl
  rw [h, W4_dst, res0]
  rfl
theorem ew1 (c : Dev nD) : (W5 m ρ c (Proc.devRef .tc main_v49)) = (ewRow (m ((c : Thread nD τ).loc main_arg5)) ![1, 0, 0] slices_S3x8x1_S1x8x1_1_0_0) := by
  have h : (W5 m ρ c (Proc.devRef .tc main_v49)) = (ewRow (W4 m ρ c (Proc.devRef .tc main_arg5)) ![1, 0, 0] slices_S3x8x1_S1x8x1_1_0_0) := by
    show StableHlo.after hostOps2 (W4 m ρ c) (Proc.devRef .tc main_v49) = _
    after_results_simp
    rfl
  rw [h, W4_arg5]
theorem eb1 (c : Dev nD) : (W5 m ρ c (Proc.devRef .tc main_v52)) = (ebCell (m ((c : Thread nD τ).loc main_arg6)) ![1, 0] slices_S3x1_S1x1_1_0) := by
  have h : (W5 m ρ c (Proc.devRef .tc main_v52)) = (ebCell (W4 m ρ c (Proc.devRef .tc main_arg6)) ![1, 0] slices_S3x1_S1x1_1_0) := by
    show StableHlo.after hostOps2 (W4 m ρ c) (Proc.devRef .tc main_v52) = _
    after_results_simp
    rfl
  rw [h, W4_arg6]
/-- After the edge launch its output holds the layer's messages. -/
theorem msgs1 (c : Dev nD) : (W6 m ρ c (Proc.devRef .tc main_v53)) = msgOf m c (wts1 m c) (off1 m c) (out0 m c) :=
  (W6_arr m ρ c 5).trans ((Launch2.final (V5 m ρ) c).trans (by
    show message (W5 m ρ c (Proc.devRef .tc main_arg2)) (fun k => (W5 m ρ c (Proc.devRef .tc main_v49)) (ix2 (0 : Fin 1) k)) ((W5 m ρ c (Proc.devRef .tc main_v52)) (ix2 (0 : Fin 1) (0 : Fin 1)))
      (W5 m ρ c (Proc.devRef .tc main_v39)) (W5 m ρ c (Proc.devRef .tc main_v46)) = _
    rw [W5_arg2, ew1, eb1, xs1, xd1]
    rfl))
theorem agg1 (c : Dev nD) : (W7 m ρ c (Proc.devRef .tc main_v56)) = intoDst m c (msgOf m c (wts1 m c) (off1 m c) (out0 m c)) := by
  have h : (W7 m ρ c (Proc.devRef .tc main_v56)) = sumInto (plainCol (W6 m ρ c (Proc.devRef .tc main_v3))) (W6 m ρ c (Proc.devRef .tc main_v53)) := by
    show StableHlo.after hostOps3 (W6 m ρ c) (Proc.devRef .tc main_v56) = _
    after_results_simp
    rfl
  rw [h, W6_dst, msgs1]
  rfl
theorem wm1 (c : Dev nD) : (W7 m ρ c (Proc.devRef .tc main_v58)) = mat1 m c := by
  have h : (W7 m ρ c (Proc.devRef .tc main_v58)) = (wMat (W6 m ρ c (Proc.devRef .tc main_arg3)) ![1, 0, 0] slices_S3x128x128_S1x128x128_1_0_0) := by
    show StableHlo.after hostOps3 (W6 m ρ c) (Proc.devRef .tc main_v58) = _
    after_results_simp
    rfl
  rw [h, W6_arg3]
  rfl
theorem bv1 (c : Dev nD) : (W7 m ρ c (Proc.devRef .tc main_v60)) = (bVec (m ((c : Thread nD τ).loc main_arg4)) ![1, 0] slices_S3x128_S1x128_1_0) := by
  have h : (W7 m ρ c (Proc.devRef .tc main_v60)) = (bVec (W6 m ρ c (Proc.devRef .tc main_arg4)) ![1, 0] slices_S3x128_S1x128_1_0) := by
    show StableHlo.after hostOps3 (W6 m ρ c) (Proc.devRef .tc main_v60) = _
    after_results_simp
    rfl
  rw [h, W6_arg4]
/-- After the node launch its output holds the layer's result. -/
theorem res1 (c : Dev nD) : (W8 m ρ c (Proc.devRef .tc main_v61)) = out1 m c :=
  (W8_arr m ρ c 4).trans ((Launch3.final (V7 m ρ) c).trans (by
    show nodeRes (W7 m ρ c (Proc.devRef .tc main_v56)) (W7 m ρ c (Proc.devRef .tc main_v58)) (fun q => (W7 m ρ c (Proc.devRef .tc main_v60)) (ix1 q)) (W7 m ρ c (Proc.devRef .tc main_v32)) = _
    rw [agg1, wm1, bv1, W7_x1, res0]
    rfl))

/-! ## Layer 2 -/

theorem xs2 (c : Dev nD) : (W9 m ρ c (Proc.devRef .tc main_v68)) = atSrc m c (out1 m c) := by
  have h : (W9 m ρ c (Proc.devRef .tc main_v68)) = rowsAt (wrapCol (W8 m ρ c (Proc.devRef .tc main_v1))) (W8 m ρ c (Proc.devRef .tc main_v61)) := by
    show StableHlo.after hostOps4 (W8 m ρ c) (Proc.devRef .tc main_v68) = _
    after_results_simp
    rfl
  rw [h, W8_src, res1]
  rfl
theorem xd2 (c : Dev nD) : (W9 m ρ c (Proc.devRef .tc main_v75)) = atDst m c (out1 m c) := by
  have h : (W9 m ρ c (Proc.devRef .tc main_v75)) = rowsAt (wrapCol (W8 m ρ c (Proc.devRef .tc main_v3))) (W8 m ρ c (Proc.devRef .tc main_v61)) := by
    show StableHlo.after hostOps4 (W8 m ρ c) (Proc.devRef .tc main_v75) = _
    after_results_simp
    rfl
  rw [h, W8_dst, res1]
  rfl
theorem ew2 (c : Dev nD) : (W9 m ρ c (Proc.devRef .tc main_v78)) = (ewRow (m ((c : Thread nD τ).loc main_arg5)) ![2, 0, 0] slices_S3x8x1_S1x8x1_2_0_0) := by
  have h : (W9 m ρ c (Proc.devRef .tc main_v78)) = (ewRow (W8 m ρ c (Proc.devRef .tc main_arg5)) ![2, 0, 0] slices_S3x8x1_S1x8x1_2_0_0) := by
    show StableHlo.after hostOps4 (W8 m ρ c) (Proc.devRef .tc main_v78) = _
    after_results_simp
    rfl
  rw [h, W8_arg5]
theorem eb2 (c : Dev nD) : (W9 m ρ c (Proc.devRef .tc main_v81)) = (ebCell (m ((c : Thread nD τ).loc main_arg6)) ![2, 0] slices_S3x1_S1x1_2_0) := by
  have h : (W9 m ρ c (Proc.devRef .tc main_v81)) = (ebCell (W8 m ρ c (Proc.devRef .tc main_arg6)) ![2, 0] slices_S3x1_S1x1_2_0) := by
    show StableHlo.after hostOps4 (W8 m ρ c) (Proc.devRef .tc main_v81) = _
    after_results_simp
    rfl
  rw [h, W8_arg6]
/-- After the edge launch its output holds the layer's messages. -/
theorem msgs2 (c : Dev nD) : (W10 m ρ c (Proc.devRef .tc main_v82)) = msgOf m c (wts2 m c) (off2 m c) (out1 m c) :=
  (W10_arr m ρ c 5).trans ((Launch4.final (V9 m ρ) c).trans (by
    show message (W9 m ρ c (Proc.devRef .tc main_arg2)) (fun k => (W9 m ρ c (Proc.devRef .tc main_v78)) (ix2 (0 : Fin 1) k)) ((W9 m ρ c (Proc.devRef .tc main_v81)) (ix2 (0 : Fin 1) (0 : Fin 1)))
      (W9 m ρ c (Proc.devRef .tc main_v68)) (W9 m ρ c (Proc.devRef .tc main_v75)) = _
    rw [W9_arg2, ew2, eb2, xs2, xd2]
    rfl))
theorem agg2 (c : Dev nD) : (W11 m ρ c (Proc.devRef .tc main_v85)) = intoDst m c (msgOf m c (wts2 m c) (off2 m c) (out1 m c)) := by
  have h : (W11 m ρ c (Proc.devRef .tc main_v85)) = sumInto (plainCol (W10 m ρ c (Proc.devRef .tc main_v3))) (W10 m ρ c (Proc.devRef .tc main_v82)) := by
    show StableHlo.after hostOps5 (W10 m ρ c) (Proc.devRef .tc main_v85) = _
    after_results_simp
    rfl
  rw [h, W10_dst, msgs2]
  rfl
theorem wm2 (c : Dev nD) : (W11 m ρ c (Proc.devRef .tc main_v87)) = mat2 m c := by
  have h : (W11 m ρ c (Proc.devRef .tc main_v87)) = (wMat (W10 m ρ c (Proc.devRef .tc main_arg3)) ![2, 0, 0] slices_S3x128x128_S1x128x128_2_0_0) := by
    show StableHlo.after hostOps5 (W10 m ρ c) (Proc.devRef .tc main_v87) = _
    after_results_simp
    rfl
  rw [h, W10_arg3]
  rfl
theorem bv2 (c : Dev nD) : (W11 m ρ c (Proc.devRef .tc main_v89)) = (bVec (m ((c : Thread nD τ).loc main_arg4)) ![2, 0] slices_S3x128_S1x128_2_0) := by
  have h : (W11 m ρ c (Proc.devRef .tc main_v89)) = (bVec (W10 m ρ c (Proc.devRef .tc main_arg4)) ![2, 0] slices_S3x128_S1x128_2_0) := by
    show StableHlo.after hostOps5 (W10 m ρ c) (Proc.devRef .tc main_v89) = _
    after_results_simp
    rfl
  rw [h, W10_arg4]
/-- After the last node launch its output holds the network's result. -/
theorem res2 (c : Dev nD) : (W12 m ρ c (Proc.devRef .tc main_v90)) = out2 m c :=
  (W12_arr m ρ c 3).trans ((Launch5.final (V11 m ρ) c).trans (by
    show affine (W11 m ρ c (Proc.devRef .tc main_v85)) (W11 m ρ c (Proc.devRef .tc main_v87)) (fun q => (W11 m ρ c (Proc.devRef .tc main_v89)) (ix1 q)) = _
    rw [agg2, wm2, bv2]
    rfl))

/-! ## The run -/

/-- The result as the three-layer network of the argument arrays. -/
theorem result_net (c : Dev nD) : W12 m ρ c (Proc.devRef .tc main_v90) =
    net (atSrc m c) (atDst m c) (intoDst m c) (m ((c : Thread nD τ).loc main_arg2)) (wts0 m c) (off0 m c) (mat0 m c) (bias0 m c)
      (wts1 m c) (off1 m c) (mat1 m c) (bias1 m c) (wts2 m c) (off2 m c) (mat2 m c) (bias2 m c) (m ((c : Thread nD τ).loc main_arg0)) :=
  res2 m ρ c

/-- Every weakly fair execution of the idealized kernel terminates with its result at the network of the argument
    arrays and the arguments unchanged. -/
theorem run : θ_run defs (onTc (τ := τ) (main (F := Ideal))) ⟨m, fun _ => 0, ρ⟩ (fun r => ∀ c : Dev nD,
      r.2.mem ((c.tc : Thread nD τ).loc main_v90) =
        net (atSrc m c) (atDst m c) (intoDst m c) (m ((c : Thread nD τ).loc main_arg2)) (wts0 m c) (off0 m c) (mat0 m c) (bias0 m c)
          (wts1 m c) (off1 m c) (mat1 m c) (bias1 m c) (wts2 m c) (off2 m c) (mat2 m c) (bias2 m c) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_net m ρ c), (h c).2⟩) (RunValue.run_result m ρ)

end Cert.KernelIdeal.NetValue

end
-- ==== Proof.RefWeight.lean ====
/-
  The reference program's edge weights. One layer's weight column is the softplus, in the guarded spelling the
  program uses, of the attributes' product with an `[8, 1]` column plus an offset broadcast down the column. Read
  at `(p, 0)` it is the specification's weight of edge `p`.
-/
import proofs.«142588_j65300682769036_1_alg».proof.Proof.Gen.ReferenceIdeal.Read
import proofs.«142588_j65300682769036_1_alg».proof.Proof.NetSpec

noncomputable section

namespace Cert.ReferenceIdeal.RefValue

open Cert.ReferenceIdeal Cert.ReferenceIdeal.Gen Cert.ReferenceIdeal.Read Idealize.ShloMosaic Idealize.ShloMosaic.ValueIdx
open Cert.LayoutLib Cert.DenseLib Cert.RowBlocks Cert.EdgeNet

/-- The affine form of the attributes as a column: the product `ea · ew` plus the offset `eb` laid down the column. -/
def preact (ea : FVec Ideal S800000x8 .f32) (ew : FVec Ideal S8x1 .f32) (eb : FVec Ideal S1 .f32) : FVec Ideal S800000x1 .f32 :=
  addf (Host.dotGeneral dot_S800000x8_S8x1_S800000x1_1_0_0_1_n_n none ea ew)
    (broadcastInDim S800000x1 ![0, 1] bcast_S1x1_S800000x1_0_1 (broadcastInDim S1x1 ![1] bcast_S1_S1x1_1 eb))

/-- The zero column the softplus compares against. -/
def zcol : FVec Ideal S800000x1 .f32 :=
  broadcastInDim S800000x1 ![] bcast_S_S800000x1 (constant (F := Ideal) S_ .f32 0x00000000#32)

/-- The softplus of a column as the program spells it: where `s - 0` differs from itself take `s + 0`, elsewhere
    `max s 0 + log1p (exp (-|s - 0|))`. -/
def softplusCol (s : FVec Ideal S800000x1 .f32) : FVec Ideal S800000x1 .f32 :=
  select (cmpf .une (subf s zcol) (subf s zcol)) (addf s zcol)
    (addf (maximumf s zcol) (Host.log1p (Host.exp (Host.negf (Host.absf (subf s zcol))))))

theorem zcol_apply (i : S800000x1.Idx) : zcol i = 0 := by
  unfold zcol
  rw [broadcastInDim_scalar_apply]
  show Ideal.ofBits .f32 0x00000000#32 = 0
  rw [Ideal.ofBits_zero_f32]

/-- No extended real differs from itself, so the guard is never taken: the column is the softplus entry by entry. -/
theorem softplusCol_apply (s : FVec Ideal S800000x1 .f32) (i : S800000x1.Idx) : softplusCol s i = softplus (s i) := by
  have hc : cmpf .une (subf s zcol) (subf s zcol) i = 0#1 := by
    show Ideal.cmp .une (subf s zcol i) (subf s zcol i) = 0#1
    simp [Ideal.cmp]
  show Scalar.select (cmpf .une (subf s zcol) (subf s zcol) i) (addf s zcol i)
      (addf (maximumf s zcol) (Host.log1p (Host.exp (Host.negf (Host.absf (subf s zcol))))) i) = _
  rw [hc, select_zero]
  show max (s i) (zcol i) + Ideal.log1p (Ideal.exp (-(max (s i - zcol i) (-(s i - zcol i))))) = _
  rw [zcol_apply]
  rfl

/-- The affine form at `(p, 0)`: the weighted sum of edge `p`'s attributes plus the offset. -/
theorem preact_apply (ea : FVec Ideal S800000x8 .f32) (ew : FVec Ideal S8x1 .f32) (eb : FVec Ideal S1 .f32) (p : Fin 800000) :
    preact ea ew eb (ix2 p (0 : Fin 1)) = (∑ k : Fin 8, ea (ix2 p k) * ew (ix2 k (0 : Fin 1))) + eb (ix1 (0 : Fin 1)) := by
  unfold preact
  rw [dotGeneral_eq_mm dot_S800000x8_S8x1_S800000x1_1_0_0_1_n_n rfl, addf_eq_plus]
  show mm ea ew (ix2 p 0) + _ = _
  rw [mm_apply, broadcastInDim_row_apply, broadcastInDim_vecRow_apply]

/-- The weight column at `(p, 0)` is the specification's weight of edge `p`. -/
theorem weight_apply (ea : FVec Ideal S800000x8 .f32) (ew : FVec Ideal S8x1 .f32) (eb : FVec Ideal S1 .f32) (p : Fin 800000) :
    softplusCol (preact ea ew eb) (ix2 p (0 : Fin 1)) = edgeWeight ea (fun k => ew (ix2 k (0 : Fin 1))) (eb (ix1 (0 : Fin 1))) p := by
  rw [softplusCol_apply, preact_apply]
  rfl

/-- The three layers' weight columns are this function of their parameter slices. -/
theorem weight0_eq (x2 : FVec Ideal S800000x8 .f32) (x5 : FVec Ideal S3x8x1 .f32) (x6 : FVec Ideal S3x1 .f32) :
    val_main_v16 (F := Ideal) x2 x5 x6 = softplusCol (preact x2 (val_main_v9 (F := Ideal) x5) (val_main_v11 (F := Ideal) x6)) := rfl

theorem weight1_eq (x2 : FVec Ideal S800000x8 .f32) (x5 : FVec Ideal S3x8x1 .f32) (x6 : FVec Ideal S3x1 .f32) :
    val_main_v55 (F := Ideal) x2 x5 x6 = softplusCol (preact x2 (val_main_v48 (F := Ideal) x5) (val_main_v50 (F := Ideal) x6)) := rfl

theorem weight2_eq (x2 : FVec Ideal S800000x8 .f32) (x5 : FVec Ideal S3x8x1 .f32) (x6 : FVec Ideal S3x1 .f32) :
    val_main_v94 (F := Ideal) x2 x5 x6 = softplusCol (preact x2 (val_main_v87 (F := Ideal) x5) (val_main_v89 (F := Ideal) x6)) := rfl

end Cert.ReferenceIdeal.RefValue

end
-- ==== Proof.RefLayer.lean ====
/-
  One layer of the reference program as a function of the arrays it is applied to. The messages are the weight column
  broadcast along the rows times the difference of the two gathered arrays; the sums into the target nodes go through a
  general dot with the layer's weight matrix and a bias broadcast in two steps; the first two layers then take the
  maximum against a broadcast zero and add the layer's input. Each is the specification's function of the same
  arrays, whatever the two gathers and the scatter compute.
-/
import proofs.«142588_j65300682769036_1_alg».proof.Proof.RefWeight

noncomputable section

namespace Cert.ReferenceIdeal.RefValue

open Cert.ReferenceIdeal Cert.ReferenceIdeal.Gen Cert.ReferenceIdeal.Read Idealize.ShloMosaic Idealize.ShloMosaic.ValueIdx
open Cert.LayoutLib Cert.DenseLib Cert.RowBlocks Cert.EdgeNet

/-- The messages as the program spells them: the weight column laid along the rows, times the difference of the rows
    fetched at the source ends and at the target ends. -/
def msg (ea : FVec Ideal S800000x8 .f32) (ew : FVec Ideal S8x1 .f32) (eb : FVec Ideal S1 .f32)
    (xs xd : FVec Ideal S800000x128 .f32) : FVec Ideal S800000x128 .f32 :=
  mulf (broadcastInDim S800000x128 ![0, 1] bcast_S800000x1_S800000x128_0_1 (softplusCol (preact ea ew eb))) (subf xs xd)

theorem msg_eq (ea : FVec Ideal S800000x8 .f32) (ew : FVec Ideal S8x1 .f32) (eb : FVec Ideal S1 .f32)
    (xs xd : FVec Ideal S800000x128 .f32) :
    msg ea ew eb xs xd = message ea (fun k => ew (ix2 k (0 : Fin 1))) (eb (ix1 (0 : Fin 1))) xs xd := by
  funext i
  obtain ⟨p, c, rfl⟩ : ∃ (p : Fin 800000) (c : Fin 128), i = ix2 p c := ⟨i 0, i 1, eq_ix2 i⟩
  show broadcastInDim S800000x128 ![0, 1] bcast_S800000x1_S800000x128_0_1 (softplusCol (preact ea ew eb)) (ix2 p c)
      * (xs (ix2 p c) - xd (ix2 p c))
    = edgeWeight ea (fun k => ew (ix2 k (0 : Fin 1))) (eb (ix1 (0 : Fin 1))) p * (xs (ix2 p c) - xd (ix2 p c))
  rw [broadcastInDim_col_apply, weight_apply]

/-- The dense step as the program spells it: a general dot with the weight matrix plus the bias broadcast to one row and
    then down the rows. -/
def dense (agg : FVec Ideal S50000x128 .f32) (W : FVec Ideal S128x128 .f32) (b : FVec Ideal S128 .f32) :
    FVec Ideal S50000x128 .f32 :=
  addf (Host.dotGeneral dot_S50000x128_S128x128_S50000x128_1_0_0_1_n_n none agg W)
    (broadcastInDim S50000x128 ![0, 1] bcast_S1x128_S50000x128_0_1 (broadcastInDim S1x128 ![1] bcast_S128_S1x128_1 b))

theorem dense_eq (agg : FVec Ideal S50000x128 .f32) (W : FVec Ideal S128x128 .f32) (b : FVec Ideal S128 .f32) :
    dense agg W b = affine agg W (fun c => b (ix1 c)) := by
  unfold dense
  rw [dotGeneral_eq_mm dot_S50000x128_S128x128_S50000x128_1_0_0_1_n_n rfl, broadcastInDim_eq_rows, addf_eq_plus]
  rfl

/-- The maximum against a broadcast zero, then the layer's input added back. -/
def cutAdd (y res : FVec Ideal S50000x128 .f32) : FVec Ideal S50000x128 .f32 :=
  addf (maximumf y (broadcastInDim S50000x128 ![] bcast_S_S50000x128 (constant (F := Ideal) S_ .f32 0x00000000#32))) res

theorem cutAdd_eq (y res : FVec Ideal S50000x128 .f32) : cutAdd y res = plus (relu y) res := by
  unfold cutAdd
  rw [maximumf_bcast_zero, addf_eq_plus]

section Layer

variable (gs gd : FVec Ideal S50000x128 .f32 → FVec Ideal S800000x128 .f32)
variable (sc : FVec Ideal S800000x128 .f32 → FVec Ideal S50000x128 .f32)

/-- A layer of the program with the cut and the input added back, over any two fetches and any summing step. -/
def layerResRef (ea : FVec Ideal S800000x8 .f32) (ew : FVec Ideal S8x1 .f32) (eb : FVec Ideal S1 .f32)
    (W : FVec Ideal S128x128 .f32) (b : FVec Ideal S128 .f32) (x : FVec Ideal S50000x128 .f32) : FVec Ideal S50000x128 .f32 :=
  cutAdd (dense (sc (msg ea ew eb (gs x) (gd x))) W b) x

/-- The program's last layer: the dense step alone. -/
def layerPlainRef (ea : FVec Ideal S800000x8 .f32) (ew : FVec Ideal S8x1 .f32) (eb : FVec Ideal S1 .f32)
    (W : FVec Ideal S128x128 .f32) (b : FVec Ideal S128 .f32) (x : FVec Ideal S50000x128 .f32) : FVec Ideal S50000x128 .f32 :=
  dense (sc (msg ea ew eb (gs x) (gd x))) W b

theorem layerResRef_eq (ea : FVec Ideal S800000x8 .f32) (ew : FVec Ideal S8x1 .f32) (eb : FVec Ideal S1 .f32)
    (W : FVec Ideal S128x128 .f32) (b : FVec Ideal S128 .f32) (x : FVec Ideal S50000x128 .f32) :
    layerResRef gs gd sc ea ew eb W b x
      = layerRes gs gd sc ea (fun k => ew (ix2 k (0 : Fin 1))) (eb (ix1 (0 : Fin 1))) W (fun c => b (ix1 c)) x := by
  unfold layerResRef
  rw [cutAdd_eq, dense_eq, msg_eq]
  rfl

theorem layerPlainRef_eq (ea : FVec Ideal S800000x8 .f32) (ew : FVec Ideal S8x1 .f32) (eb : FVec Ideal S1 .f32)
    (W : FVec Ideal S128x128 .f32) (b : FVec Ideal S128 .f32) (x : FVec Ideal S50000x128 .f32) :
    layerPlainRef gs gd sc ea ew eb W b x
      = layerPlain gs gd sc ea (fun k => ew (ix2 k (0 : Fin 1))) (eb (ix1 (0 : Fin 1))) W (fun c => b (ix1 c)) x := by
  unfold layerPlainRef
  rw [dense_eq, msg_eq]
  rfl

end Layer

end Cert.ReferenceIdeal.RefValue

end
-- ==== Proof.RefNet.lean ====
/-
  The reference program's result as the specification's three-layer network. The three layers fetch rows with the
  same two index columns and sum with the same index column into the same zero array (the program recomputes them
  for every layer, under other names, by the same operations), so one pair of fetches and one summing step serve all
  three; what those host operations compute is left as it is.
-/
import proofs.«142588_j65300682769036_1_alg».proof.Proof.RefLayer

noncomputable section

namespace Cert.ReferenceIdeal.RefValue

open Cert.ReferenceIdeal Cert.ReferenceIdeal.Gen Cert.ReferenceIdeal.Read Idealize.ShloMosaic Idealize.ShloMosaic.ValueIdx
open Cert.LayoutLib Cert.DenseLib Cert.RowBlocks Cert.EdgeNet

/-- The rows of a node array at the edges' source ends. -/
def srcRows (x1 : (⟨S2x800000, .i32⟩ : BufTy).Contents (Elt Ideal)) (x : FVec Ideal S50000x128 .f32) : FVec Ideal S800000x128 .f32 :=
  Host.gather gather_S50000x128_S800000x1_S800000x128_1_0_n_n_0_1_1128 x (val_main_v22 (F := Ideal) x1)

/-- The rows of a node array at the edges' target ends. -/
def dstRows (x1 : (⟨S2x800000, .i32⟩ : BufTy).Contents (Elt Ideal)) (x : FVec Ideal S50000x128 .f32) : FVec Ideal S800000x128 .f32 :=
  Host.gather gather_S50000x128_S800000x1_S800000x128_1_0_n_n_0_1_1128 x (val_main_v29 (F := Ideal) x1)

/-- An edge array summed into the zero node array at the edges' target ends. -/
def sumInto (x1 : (⟨S2x800000, .i32⟩ : BufTy).Contents (Elt Ideal)) (u : FVec Ideal S800000x128 .f32) : FVec Ideal S50000x128 .f32 :=
  Host.scatterAdd scatter_S50000x128_S800000x1_S800000x128_1_0_0_1 (val_main_v34 (F := Ideal)) (val_main_v35 (F := Ideal) x1) u

/-- The first layer's result is the layer function of the program's input. -/
theorem layer0_eq (x0 : (⟨S50000x128, .f32⟩ : BufTy).Contents (Elt Ideal))
    (x1 : (⟨S2x800000, .i32⟩ : BufTy).Contents (Elt Ideal))
    (x2 : (⟨S800000x8, .f32⟩ : BufTy).Contents (Elt Ideal))
    (x3 : (⟨S3x128x128, .f32⟩ : BufTy).Contents (Elt Ideal))
    (x4 : (⟨S3x128, .f32⟩ : BufTy).Contents (Elt Ideal))
    (x5 : (⟨S3x8x1, .f32⟩ : BufTy).Contents (Elt Ideal))
    (x6 : (⟨S3x1, .f32⟩ : BufTy).Contents (Elt Ideal)) :
    val_main_v42 (F := Ideal) x0 x1 x2 x3 x4 x5 x6
      = layerResRef (srcRows x1) (dstRows x1) (sumInto x1) x2 (val_main_v9 (F := Ideal) x5) (val_main_v11 (F := Ideal) x6) (val_main_v5 (F := Ideal) x3) (val_main_v7 (F := Ideal) x4) x0 := rfl

/-- The second layer's result is the layer function of the first layer's. -/
theorem layer1_eq (x0 : (⟨S50000x128, .f32⟩ : BufTy).Contents (Elt Ideal))
    (x1 : (⟨S2x800000, .i32⟩ : BufTy).Contents (Elt Ideal))
    (x2 : (⟨S800000x8, .f32⟩ : BufTy).Contents (Elt Ideal))
    (x3 : (⟨S3x128x128, .f32⟩ : BufTy).Contents (Elt Ideal))
    (x4 : (⟨S3x128, .f32⟩ : BufTy).Contents (Elt Ideal))
    (x5 : (⟨S3x8x1, .f32⟩ : BufTy).Contents (Elt Ideal))
    (x6 : (⟨S3x1, .f32⟩ : BufTy).Contents (Elt Ideal)) :
    val_main_v81 (F := Ideal) x0 x1 x2 x3 x4 x5 x6
      = layerResRef (srcRows x1) (dstRows x1) (sumInto x1) x2 (val_main_v48 (F := Ideal) x5) (val_main_v50 (F := Ideal) x6) (val_main_v44 (F := Ideal) x3) (val_main_v46 (F := Ideal) x4)
          (val_main_v42 (F := Ideal) x0 x1 x2 x3 x4 x5 x6) := rfl

/-- The program's result is the plain layer function of the second layer's. -/
theorem layer2_eq (x0 : (⟨S50000x128, .f32⟩ : BufTy).Contents (Elt Ideal))
    (x1 : (⟨S2x800000, .i32⟩ : BufTy).Contents (Elt Ideal))
    (x2 : (⟨S800000x8, .f32⟩ : BufTy).Contents (Elt Ideal))
    (x3 : (⟨S3x128x128, .f32⟩ : BufTy).Contents (Elt Ideal))
    (x4 : (⟨S3x128, .f32⟩ : BufTy).Contents (Elt Ideal))
    (x5 : (⟨S3x8x1, .f32⟩ : BufTy).Contents (Elt Ideal))
    (x6 : (⟨S3x1, .f32⟩ : BufTy).Contents (Elt Ideal)) :
    val_main_v118 (F := Ideal) x0 x1 x2 x3 x4 x5 x6
      = layerPlainRef (srcRows x1) (dstRows x1) (sumInto x1) x2 (val_main_v87 (F := Ideal) x5) (val_main_v89 (F := Ideal) x6) (val_main_v83 (F := Ideal) x3) (val_main_v85 (F := Ideal) x4)
          (val_main_v81 (F := Ideal) x0 x1 x2 x3 x4 x5 x6) := rfl

/-- The reference program computes the three-layer network of the specification, over its own two fetches and its own
    summing step, from the slices of its parameter arrays. -/
theorem ref_net (x0 : (⟨S50000x128, .f32⟩ : BufTy).Contents (Elt Ideal))
    (x1 : (⟨S2x800000, .i32⟩ : BufTy).Contents (Elt Ideal))
    (x2 : (⟨S800000x8, .f32⟩ : BufTy).Contents (Elt Ideal))
    (x3 : (⟨S3x128x128, .f32⟩ : BufTy).Contents (Elt Ideal))
    (x4 : (⟨S3x128, .f32⟩ : BufTy).Contents (Elt Ideal))
    (x5 : (⟨S3x8x1, .f32⟩ : BufTy).Contents (Elt Ideal))
    (x6 : (⟨S3x1, .f32⟩ : BufTy).Contents (Elt Ideal)) :
    val_main_v118 (F := Ideal) x0 x1 x2 x3 x4 x5 x6 =
      net (fun x => Host.gather gather_S50000x128_S800000x1_S800000x128_1_0_n_n_0_1_1128 x (val_main_v22 (F := Ideal) x1))
        (fun x => Host.gather gather_S50000x128_S800000x1_S800000x128_1_0_n_n_0_1_1128 x (val_main_v29 (F := Ideal) x1))
        (fun u => Host.scatterAdd (F := Ideal) (φ := .f32) scatter_S50000x128_S800000x1_S800000x128_1_0_0_1 (val_main_v34 (F := Ideal)) (val_main_v35 (F := Ideal) x1) u)
        x2
        (fun k => val_main_v9 (F := Ideal) x5 (ix2 k (0 : Fin 1))) (val_main_v11 (F := Ideal) x6 (ix1 (0 : Fin 1))) (val_main_v5 (F := Ideal) x3) (fun c => val_main_v7 (F := Ideal) x4 (ix1 c))
        (fun k => val_main_v48 (F := Ideal) x5 (ix2 k (0 : Fin 1))) (val_main_v50 (F := Ideal) x6 (ix1 (0 : Fin 1))) (val_main_v44 (F := Ideal) x3) (fun c => val_main_v46 (F := Ideal) x4 (ix1 c))
        (fun k => val_main_v87 (F := Ideal) x5 (ix2 k (0 : Fin 1))) (val_main_v89 (F := Ideal) x6 (ix1 (0 : Fin 1))) (val_main_v83 (F := Ideal) x3) (fun c => val_main_v85 (F := Ideal) x4 (ix1 c))
        x0 := by
  rw [layer2_eq, layer1_eq, layer0_eq, layerPlainRef_eq, layerResRef_eq, layerResRef_eq]
  rfl

end Cert.ReferenceIdeal.RefValue

end
-- ==== Proof.NetsAgree.lean ====
/-
  The two programs' host steps name the same network. The kernel's program and the reference program fetch rows with
  the same two index columns, sum into the same zero array with the same index column, and cut the same slices out
  of the stacked parameter arrays; the kernel's program lays a layer's edge weights as a row (a transpose of the
  reference's column) and its offset as a one-by-one array (a cast of the reference's one-entry vector), which read
  at an index are the reference's entries. So the specification's network over the kernel's host steps is the
  reference program's result.
-/
import proofs.«142588_j65300682769036_1_alg».proof.Proof.RefNet
import proofs.«142588_j65300682769036_1_alg».proof.Proof.HostStages

noncomputable section

namespace Cert.NetsAgree

open Cert.ReferenceIdeal Cert.ReferenceIdeal.Read Cert.KernelIdeal.Stages Idealize.ShloMosaic Idealize.ShloMosaic.ValueIdx
open Cert.EdgeNet

/-- The edge weights laid as a row, read at `(0, k)`, are the column's entry `(k, 0)`. -/
theorem ewRow_apply (x5 : (⟨S3x8x1, .f32⟩ : BufTy).Contents (Elt Ideal)) (o : Fin 3 → ℕ)
    (h : Cert.KernelIdeal.S3x8x1.Slices o Cert.KernelIdeal.S1x8x1) (k : Fin 8) :
    ewRow x5 o h (ix2 (0 : Fin 1) k)
      = shapeCast Cert.KernelIdeal.S8x1 (extractStridedSlice Cert.KernelIdeal.S1x8x1 o x5 h) Cert.KernelIdeal.Gen.shapeCasts_S1x8x1_S8x1 (ix2 k (0 : Fin 1)) := by
  unfold ewRow
  exact transpose_apply [1, 0] _ Cert.KernelIdeal.Gen.transposes_S8x1_S1x8_1_0 (ix2 (0 : Fin 1) k) (ix2 k (0 : Fin 1))
    (fun b => match b with | ⟨0, _⟩ => rfl | ⟨1, _⟩ => rfl)

/-- The offset as a one-by-one array, read at `(0, 0)`, is the one-entry vector's entry. -/
theorem ebCell_apply (x6 : (⟨S3x1, .f32⟩ : BufTy).Contents (Elt Ideal)) (o : Fin 2 → ℕ)
    (h : Cert.KernelIdeal.S3x1.Slices o Cert.KernelIdeal.S1x1) :
    ebCell x6 o h (ix2 (0 : Fin 1) (0 : Fin 1))
      = shapeCast Cert.KernelIdeal.S1 (extractStridedSlice Cert.KernelIdeal.S1x1 o x6 h) Cert.KernelIdeal.Gen.shapeCasts_S1x1_S1 (ix1 (0 : Fin 1)) := by
  unfold ebCell
  exact shapeCast_apply _ Cert.KernelIdeal.Gen.shapeCasts_S1_S1x1 (ix2 (0 : Fin 1) (0 : Fin 1)) (ix1 (0 : Fin 1))
    (by rw [Shape.rowMajor_val_one, Shape.rowMajor_val_two]; rfl)

/-- The specification's network over the kernel program's host steps is the reference program's result. -/
theorem nets_agree (x0 : (⟨S50000x128, .f32⟩ : BufTy).Contents (Elt Ideal))
    (x1 : (⟨S2x800000, .i32⟩ : BufTy).Contents (Elt Ideal))
    (x2 : (⟨S800000x8, .f32⟩ : BufTy).Contents (Elt Ideal))
    (x3 : (⟨S3x128x128, .f32⟩ : BufTy).Contents (Elt Ideal))
    (x4 : (⟨S3x128, .f32⟩ : BufTy).Contents (Elt Ideal))
    (x5 : (⟨S3x8x1, .f32⟩ : BufTy).Contents (Elt Ideal))
    (x6 : (⟨S3x1, .f32⟩ : BufTy).Contents (Elt Ideal)) :
    net (rowsAt (wrapCol (srcVec x1))) (rowsAt (wrapCol (dstVec x1))) (sumInto (plainCol (dstVec x1))) x2
        (fun k => ewRow x5 ![0, 0, 0] Cert.KernelIdeal.Gen.slices_S3x8x1_S1x8x1_0_0_0 (ix2 (0 : Fin 1) k))
        (ebCell x6 ![0, 0] Cert.KernelIdeal.Gen.slices_S3x1_S1x1_0_0 (ix2 (0 : Fin 1) (0 : Fin 1)))
        (wMat x3 ![0, 0, 0] Cert.KernelIdeal.Gen.slices_S3x128x128_S1x128x128_0_0_0)
        (fun q => bVec x4 ![0, 0] Cert.KernelIdeal.Gen.slices_S3x128_S1x128_0_0 (ix1 q))
        (fun k => ewRow x5 ![1, 0, 0] Cert.KernelIdeal.Gen.slices_S3x8x1_S1x8x1_1_0_0 (ix2 (0 : Fin 1) k))
        (ebCell x6 ![1, 0] Cert.KernelIdeal.Gen.slices_S3x1_S1x1_1_0 (ix2 (0 : Fin 1) (0 : Fin 1)))
        (wMat x3 ![1, 0, 0] Cert.KernelIdeal.Gen.slices_S3x128x128_S1x128x128_1_0_0)
        (fun q => bVec x4 ![1, 0] Cert.KernelIdeal.Gen.slices_S3x128_S1x128_1_0 (ix1 q))
        (fun k => ewRow x5 ![2, 0, 0] Cert.KernelIdeal.Gen.slices_S3x8x1_S1x8x1_2_0_0 (ix2 (0 : Fin 1) k))
        (ebCell x6 ![2, 0] Cert.KernelIdeal.Gen.slices_S3x1_S1x1_2_0 (ix2 (0 : Fin 1) (0 : Fin 1)))
        (wMat x3 ![2, 0, 0] Cert.KernelIdeal.Gen.slices_S3x128x128_S1x128x128_2_0_0)
        (fun q => bVec x4 ![2, 0] Cert.KernelIdeal.Gen.slices_S3x128_S1x128_2_0 (ix1 q))
        x0
      = val_main_v118 (F := Ideal) x0 x1 x2 x3 x4 x5 x6 := by
  have e0 : (fun k : Fin 8 => ewRow x5 ![0, 0, 0] Cert.KernelIdeal.Gen.slices_S3x8x1_S1x8x1_0_0_0 (ix2 (0 : Fin 1) k))
      = fun k => val_main_v9 (F := Ideal) x5 (ix2 k (0 : Fin 1)) := funext fun k => ewRow_apply x5 _ _ k
  have b0 : ebCell x6 ![0, 0] Cert.KernelIdeal.Gen.slices_S3x1_S1x1_0_0 (ix2 (0 : Fin 1) (0 : Fin 1))
      = val_main_v11 (F := Ideal) x6 (ix1 (0 : Fin 1)) := ebCell_apply x6 _ _
  have e1 : (fun k : Fin 8 => ewRow x5 ![1, 0, 0] Cert.KernelIdeal.Gen.slices_S3x8x1_S1x8x1_1_0_0 (ix2 (0 : Fin 1) k))
      = fun k => val_main_v48 (F := Ideal) x5 (ix2 k (0 : Fin 1)) := funext fun k => ewRow_apply x5 _ _ k
  have b1 : ebCell x6 ![1, 0] Cert.KernelIdeal.Gen.slices_S3x1_S1x1_1_0 (ix2 (0 : Fin 1) (0 : Fin 1))
      = val_main_v50 (F := Ideal) x6 (ix1 (0 : Fin 1)) := ebCell_apply x6 _ _
  have e2 : (fun k : Fin 8 => ewRow x5 ![2, 0, 0] Cert.KernelIdeal.Gen.slices_S3x8x1_S1x8x1_2_0_0 (ix2 (0 : Fin 1) k))
      = fun k => val_main_v87 (F := Ideal) x5 (ix2 k (0 : Fin 1)) := funext fun k => ewRow_apply x5 _ _ k
  have b2 : ebCell x6 ![2, 0] Cert.KernelIdeal.Gen.slices_S3x1_S1x1_2_0 (ix2 (0 : Fin 1) (0 : Fin 1))
      = val_main_v89 (F := Ideal) x6 (ix1 (0 : Fin 1)) := ebCell_apply x6 _ _
  rw [Cert.ReferenceIdeal.RefValue.ref_net, e0, e1, e2, b0, b1, b2]
  rfl

end Cert.NetsAgree

end
-- ==== Proof.lean ====
/-
  A three-layer graph network on node features, computed two ways and shown equal over the extended reals.

  One layer gives every edge a weight, the softplus of an affine form of its eight attributes; the edge's message is that
  weight times the difference of the feature rows of its source and target nodes; the messages are summed into their
  target nodes; the sums go through a dense layer. The first two layers cut the result at zero and add the layer's input
  back. The kernel's program does the weights and messages in one launch over blocks of 8000 edges and the dense layer in
  another over blocks of 10000 nodes, with the gathers of rows and the sums into nodes as host operations between them;
  the reference does everything with host operations. On the extended reals a change of float format is the identity,
  a lane sum and a contraction over the eight attributes are the same finite sum, and so are a blockwise product and a
  whole one: a row of the result depends only on that row of its operands. The gathers and the sums into nodes are spelt
  identically in the two programs, so nothing depends on what they do with an index that names no node, and no law that
  needs finite inputs is used.

  The kernel's result is read off its memory fold through six launches (NetValue.run); the reference's off its stages
  (RefValue.ref_net); NetsAgree.nets_agree joins the two spellings of the parameters.
-/
import proofs.«142588_j65300682769036_1_alg».proof.Defs
import proofs.«142588_j65300682769036_1_alg».proof.Proof.Gen.Kernel
import proofs.«142588_j65300682769036_1_alg».proof.Proof.Gen.Kernel.Skeleton
import proofs.«142588_j65300682769036_1_alg».proof.Proof.Gen.Kernel.Launch
import proofs.«142588_j65300682769036_1_alg».proof.Proof.Gen.Kernel.Points
import proofs.«142588_j65300682769036_1_alg».proof.Proof.Gen.Kernel.Frame
import proofs.«142588_j65300682769036_1_alg».proof.Proof.Gen.KernelIdeal
import proofs.«142588_j65300682769036_1_alg».proof.Proof.Gen.KernelIdeal.Skeleton
import proofs.«142588_j65300682769036_1_alg».proof.Proof.Gen.KernelIdeal.Launch
import proofs.«142588_j65300682769036_1_alg».proof.Proof.Gen.KernelIdeal.Points
import proofs.«142588_j65300682769036_1_alg».proof.Proof.Gen.KernelIdeal.Frame
import proofs.«142588_j65300682769036_1_alg».proof.Proof.Gen.ReferenceIdeal
import proofs.«142588_j65300682769036_1_alg».proof.Proof.Gen.ReferenceIdeal.Run
import proofs.«142588_j65300682769036_1_alg».proof.Proof.Gen.ReferenceIdeal.Read
import proofs.«142588_j65300682769036_1_alg».proof.Proof.Gen.Pre_finite_inputs
import proofs.«142588_j65300682769036_1_alg».proof.Proof.KernelNet
import proofs.«142588_j65300682769036_1_alg».proof.Proof.NetsAgree
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the three-layer network of the arguments. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v118_eq, (hagree c).1, (hagree c).2.1, (hagree c).2.2.1, (hagree c).2.2.2.1,
    (hagree c).2.2.2.2.1, (hagree c).2.2.2.2.2.1, (hagree c).2.2.2.2.2.2]
  exact (Cert.NetsAgree.nets_agree _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
